-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x192 : Shape := ⟨3, ![4096, 49, 192]⟩
abbrev S64x49x49 : Shape := ⟨3, ![64, 49, 49]⟩
abbrev S576x192 : Shape := ⟨2, ![576, 192]⟩
abbrev S576 : Shape := ⟨1, ![576]⟩
abbrev S6x1x1 : Shape := ⟨3, ![6, 1, 1]⟩
abbrev S169x6 : Shape := ⟨2, ![169, 6]⟩
abbrev S49x49 : Shape := ⟨2, ![49, 49]⟩
abbrev S192x192 : Shape := ⟨2, ![192, 192]⟩
abbrev S192 : Shape := ⟨1, ![192]⟩
abbrev S_ : Shape := ⟨0, ![]⟩

class Facts : Prop where
  bcast_S_S4096x49x192 : S_.BroadcastsInDim S4096x49x192 (![] : Fin 0 → Fin S4096x49x192.rank)
  reducesTo_S4096x49x192_S_d0_1_2 : S4096x49x192.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S576x192 : S_.BroadcastsInDim S576x192 (![] : Fin 0 → Fin S576x192.rank)
  reducesTo_S576x192_S_d0_1 : S576x192.ReducesTo [0, 1] S_
  bcast_S_S576 : S_.BroadcastsInDim S576 (![] : Fin 0 → Fin S576.rank)
  reducesTo_S576_S_d0 : S576.ReducesTo [0] S_
  bcast_S_S6x1x1 : S_.BroadcastsInDim S6x1x1 (![] : Fin 0 → Fin S6x1x1.rank)
  reducesTo_S6x1x1_S_d0_1_2 : S6x1x1.ReducesTo [0, 1, 2] S_
  bcast_S_S169x6 : S_.BroadcastsInDim S169x6 (![] : Fin 0 → Fin S169x6.rank)
  reducesTo_S169x6_S_d0_1 : S169x6.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192 .f32) (main_v33 : IVec S_ 1) : IVec S_ 1 :=
  let main_v34 : FVec F S192 .f32 := Host.absf main_arg8
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  main_v38

def fn_part1 {F : FTy → Type} [FloatOps F] (main_arg4 : FVec F S6x1x1 .f32) (main_arg5 : FVec F S169x6 .f32) (main_arg7 : FVec F S192x192 .f32) (main_arg8 : FVec F S192 .f32) (main_v13 : IVec S_ 1) (main_v16 : IVec S576 1) : IVec S_ 1 :=
  let main_c_5 : IVec S_ 1 := constantI S_ 1 1#1
  let main_v17 : IVec S_ 1 := (fun x v => Host.reduce IntOp.andi x v reducesTo_S576_S_d0 h_S_) main_v16 main_c_5
  let main_v18 : IVec S_ 1 := andi main_v13 main_v17
  let main_v19 : FVec F S6x1x1 .f32 := Host.absf main_arg4
  let main_cst_6 : FVec F S_ .f32 := constant S_ .f32 0x7F800000#32
  let main_v20 : FVec F S6x1x1 .f32 := broadcastInDim S6x1x1 ![] bcast_S_S6x1x1 main_cst_6
  let main_v21 : IVec S6x1x1 1 := cmpf .olt main_v19 main_v20
  let main_c_7 : IVec S_ 1 := constantI S_ 1 1#1
  let main_v22 : IVec S_ 1 := (fun x v => Host.reduce IntOp.andi x v reducesTo_S6x1x1_S_d0_1_2 h_S_) main_v21 main_c_7
  let main_v23 : IVec S_ 1 := andi main_v18 main_v22
  let main_v24 : FVec F S169x6 .f32 := Host.absf main_arg5
  let main_cst_8 : FVec F S_ .f32 := constant S_ .f32 0x7F800000#32
  let main_v25 : FVec F S169x6 .f32 := broadcastInDim S169x6 ![] bcast_S_S169x6 main_cst_8
  let main_v26 : IVec S169x6 1 := cmpf .olt main_v24 main_v25
  let main_c_9 : IVec S_ 1 := constantI S_ 1 1#1
  let main_v27 : IVec S_ 1 := (fun x v => Host.reduce IntOp.andi x v reducesTo_S169x6_S_d0_1 h_S_) main_v26 main_c_9
  let main_v28 : IVec S_ 1 := andi main_v23 main_v27
  let main_v29 : FVec F S192x192 .f32 := Host.absf main_arg7
  let main_cst_10 : FVec F S_ .f32 := constant S_ .f32 0x7F800000#32
  let main_v30 : FVec F S192x192 .f32 := broadcastInDim S192x192 ![] bcast_S_S192x192 main_cst_10
  let main_v31 : IVec S192x192 1 := cmpf .olt main_v29 main_v30
  let main_c_11 : IVec S_ 1 := constantI S_ 1 1#1
  let main_v32 : IVec S_ 1 := (fun x v => Host.reduce IntOp.andi x v reducesTo_S192x192_S_d0_1 h_S_) main_v31 main_c_11
  let main_v33 : IVec S_ 1 := andi main_v28 main_v32
  fn_part2 (F := F) main_arg8 main_v33

def fn {F : FTy → Type} [FloatOps F] (main_arg0 : FVec F S4096x49x192 .f32) (main_arg1 : FVec F S64x49x49 .f32) (main_arg2 : FVec F S576x192 .f32) (main_arg3 : FVec F S576 .f32) (main_arg4 : FVec F S6x1x1 .f32) (main_arg5 : FVec F S169x6 .f32) (main_arg6 : IVec S49x49 32) (main_arg7 : FVec F S192x192 .f32) (main_arg8 : FVec F S192 .f32) : IVec S_ 1 :=
  let main_v0 : FVec F S4096x49x192 .f32 := Host.absf main_arg0
  let main_cst : FVec F S_ .f32 := constant S_ .f32 0x7F800000#32
  let main_v1 : FVec F S4096x49x192 .f32 := broadcastInDim S4096x49x192 ![] bcast_S_S4096x49x192 main_cst
  let main_v2 : IVec S4096x49x192 1 := cmpf .olt main_v0 main_v1
  let main_c : IVec S_ 1 := constantI S_ 1 1#1
  let main_v3 : IVec S_ 1 := (fun x v => Host.reduce IntOp.andi x v reducesTo_S4096x49x192_S_d0_1_2 h_S_) main_v2 main_c
  let main_v4 : FVec F S64x49x49 .f32 := Host.absf main_arg1
  let main_cst_0 : FVec F S_ .f32 := constant S_ .f32 0x7F800000#32
  let main_v5 : FVec F S64x49x49 .f32 := broadcastInDim S64x49x49 ![] bcast_S_S64x49x49 main_cst_0
  let main_v6 : IVec S64x49x49 1 := cmpf .olt main_v4 main_v5
  let main_c_1 : IVec S_ 1 := constantI S_ 1 1#1
  let main_v7 : IVec S_ 1 := (fun x v => Host.reduce IntOp.andi x v reducesTo_S64x49x49_S_d0_1_2 h_S_) main_v6 main_c_1
  let main_v8 : IVec S_ 1 := andi main_v3 main_v7
  let main_v9 : FVec F S576x192 .f32 := Host.absf main_arg2
  let main_cst_2 : FVec F S_ .f32 := constant S_ .f32 0x7F800000#32
  let main_v10 : FVec F S576x192 .f32 := broadcastInDim S576x192 ![] bcast_S_S576x192 main_cst_2
  let main_v11 : IVec S576x192 1 := cmpf .olt main_v9 main_v10
  let main_c_3 : IVec S_ 1 := constantI S_ 1 1#1
  let main_v12 : IVec S_ 1 := (fun x v => Host.reduce IntOp.andi x v reducesTo_S576x192_S_d0_1 h_S_) main_v11 main_c_3
  let main_v13 : IVec S_ 1 := andi main_v8 main_v12
  let main_v14 : FVec F S576 .f32 := Host.absf main_arg3
  let main_cst_4 : FVec F S_ .f32 := constant S_ .f32 0x7F800000#32
  let main_v15 : FVec F S576 .f32 := broadcastInDim S576 ![] bcast_S_S576 main_cst_4
  let main_v16 : IVec S576 1 := cmpf .olt main_v14 main_v15
  fn_part1 (F := F) main_arg4 main_arg5 main_arg7 main_arg8 main_v13 main_v16
-- ==== Kernel.lean ====
abbrev S4096x49x192 : Shape := ⟨3, ![4096, 49, 192]⟩
abbrev S64x49x49 : Shape := ⟨3, ![64, 49, 49]⟩
abbrev S576x192 : Shape := ⟨2, ![576, 192]⟩
abbrev S576 : Shape := ⟨1, ![576]⟩
abbrev S6x1x1 : Shape := ⟨3, ![6, 1, 1]⟩
abbrev S169x6 : Shape := ⟨2, ![169, 6]⟩
abbrev S49x49 : Shape := ⟨2, ![49, 49]⟩
abbrev S192x192 : Shape := ⟨2, ![192, 192]⟩
abbrev S192 : Shape := ⟨1, ![192]⟩
abbrev S2401 : Shape := ⟨1, ![2401]⟩
abbrev S_ : Shape := ⟨0, ![]⟩
abbrev S2401x1 : Shape := ⟨2, ![2401, 1]⟩
abbrev S2401x6 : Shape := ⟨2, ![2401, 6]⟩
abbrev S49x49x6 : Shape := ⟨3, ![49, 49, 6]⟩
abbrev S6x49x49 : Shape := ⟨3, ![6, 49, 49]⟩
abbrev S6 : Shape := ⟨1, ![6]⟩
abbrev S192x576 : Shape := ⟨2, ![192, 576]⟩
abbrev S32x49x192 : Shape := ⟨3, ![32, 49, 192]⟩
abbrev S32x49x49 : Shape := ⟨3, ![32, 49, 49]⟩
abbrev S1568x192 : Shape := ⟨2, ![1568, 192]⟩
abbrev S1x192 : Shape := ⟨2, ![1, 192]⟩
abbrev S32x49x6x32 : Shape := ⟨4, ![32, 49, 6, 32]⟩
abbrev S32x6x49x32 : Shape := ⟨4, ![32, 6, 49, 32]⟩
abbrev S32x6x49 : Shape := ⟨3, ![32, 6, 49]⟩
abbrev S32x6x49x1 : Shape := ⟨4, ![32, 6, 49, 1]⟩
abbrev S192x49x32 : Shape := ⟨3, ![192, 49, 32]⟩
abbrev S192x49x49 : Shape := ⟨3, ![192, 49, 49]⟩
abbrev S32x6x49x49 : Shape := ⟨4, ![32, 6, 49, 49]⟩
abbrev S1x6x1x1 : Shape := ⟨4, ![1, 6, 1, 1]⟩
abbrev S1x6x49x49 : Shape := ⟨4, ![1, 6, 49, 49]⟩
abbrev S32x1x49x49 : Shape := ⟨4, ![32, 1, 49, 49]⟩

abbrev nBuf : Space → Nat
  | .hbm => 35
  | .vmem => 16
  | .smem => 0
  | _ => 0

abbrev bufTy : (tb : Table) → Fin (tcTables nBuf tb) → BufTy
  | .hbm, ⟨0, _⟩ => ⟨S4096x49x192, .f32⟩
  | .hbm, ⟨1, _⟩ => ⟨S64x49x49, .f32⟩
  | .hbm, ⟨2, _⟩ => ⟨S576x192, .f32⟩
  | .hbm, ⟨3, _⟩ => ⟨S576, .f32⟩
  | .hbm, ⟨4, _⟩ => ⟨S6x1x1, .f32⟩
  | .hbm, ⟨5, _⟩ => ⟨S169x6, .f32⟩
  | .hbm, ⟨6, _⟩ => ⟨S49x49, .i32⟩
  | .hbm, ⟨7, _⟩ => ⟨S192x192, .f32⟩
  | .hbm, ⟨8, _⟩ => ⟨S192, .f32⟩
  | .hbm, ⟨9, _⟩ => ⟨S2401, .i32⟩
  | .hbm, ⟨10, _⟩ => ⟨S_, .i32⟩
  | .hbm, ⟨11, _⟩ => ⟨S2401, .i32⟩
  | .hbm, ⟨12, _⟩ => ⟨S2401, .i1⟩
  | .hbm, ⟨13, _⟩ => ⟨S_, .i32⟩
  | .hbm, ⟨14, _⟩ => ⟨S2401, .i32⟩
  | .hbm, ⟨15, _⟩ => ⟨S2401, .i32⟩
  | .hbm, ⟨16, _⟩ => ⟨S2401, .i32⟩
  | .hbm, ⟨17, _⟩ => ⟨S2401x1, .i32⟩
  | .hbm, ⟨18, _⟩ => ⟨S2401x6, .f32⟩
  | .hbm, ⟨19, _⟩ => ⟨S49x49x6, .f32⟩
  | .hbm, ⟨20, _⟩ => ⟨S6x49x49, .f32⟩
  | .hbm, ⟨21, _⟩ => ⟨S_, .f32⟩
  | .hbm, ⟨22, _⟩ => ⟨S6x1x1, .f32⟩
  | .hbm, ⟨23, _⟩ => ⟨S6x1x1, .f32⟩
  | .hbm, ⟨24, _⟩ => ⟨S6x1x1, .f32⟩
  | .hbm, ⟨25, _⟩ => ⟨S6, .f32⟩
  | .hbm, ⟨26, _⟩ => ⟨S192x576, .f32⟩
  | .hbm, ⟨27, _⟩ => ⟨S192x192, .f32⟩
  | .hbm, ⟨28, _⟩ => ⟨S192x192, .f32⟩
  | .hbm, ⟨29, _⟩ => ⟨S192x192, .f32⟩
  | .hbm, ⟨30, _⟩ => ⟨S192, .f32⟩
  | .hbm, ⟨31, _⟩ => ⟨S192, .f32⟩
  | .hbm, ⟨32, _⟩ => ⟨S192, .f32⟩
  | .hbm, ⟨33, _⟩ => ⟨S192x192, .f32⟩
  | .hbm, ⟨34, _⟩ => ⟨S4096x49x192, .f32⟩
  | .local _ .vmem, ⟨0, _⟩ => ⟨S32x49x192, .f32⟩
  | .local _ .vmem, ⟨1, _⟩ => ⟨S32x49x192, .f32⟩
  | .local _ .vmem, ⟨2, _⟩ => ⟨S192x192, .f32⟩
  | .local _ .vmem, ⟨3, _⟩ => ⟨S192, .f32⟩
  | .local _ .vmem, ⟨4, _⟩ => ⟨S192x192, .f32⟩
  | .local _ .vmem, ⟨5, _⟩ => ⟨S192, .f32⟩
  | .local _ .vmem, ⟨6, _⟩ => ⟨S192x192, .f32⟩
  | .local _ .vmem, ⟨7, _⟩ => ⟨S192, .f32⟩
  | .local _ .vmem, ⟨8, _⟩ => ⟨S6, .f32⟩
  | .local _ .vmem, ⟨9, _⟩ => ⟨S6x49x49, .f32⟩
  | .local _ .vmem, ⟨10, _⟩ => ⟨S32x49x49, .f32⟩
  | .local _ .vmem, ⟨11, _⟩ => ⟨S32x49x49, .f32⟩
  | .local _ .vmem, ⟨12, _⟩ => ⟨S192x192, .f32⟩
  | .local _ .vmem, ⟨13, _⟩ => ⟨S192, .f32⟩
  | .local _ .vmem, ⟨14, _⟩ => ⟨S32x49x192, .f32⟩
  | .local _ .vmem, ⟨15, _⟩ => ⟨S32x49x192, .f32⟩
  | _, _ => ⟨S4096x49x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x49x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x49x49 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x49x49 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S192x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x49x192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x6_S49x49x6 : S2401x6.ShapeCasts S49x49x6
  transposes_S49x49x6_S6x49x49_2_0_1 : S49x49x6.Transposes [2, 0, 1] S6x49x49
  bcast_S_S6x1x1 : S_.BroadcastsInDim S6x1x1 (![] : Fin 0 → Fin S6x1x1.rank)
  shapeCasts_S6x1x1_S6 : S6x1x1.ShapeCasts S6
  transposes_S576x192_S192x576_1_0 : S576x192.Transposes [1, 0] S192x576
  slices_S192x576_S192x192_0_0 : S192x576.Slices ![0, 0] S192x192
  slices_S192x576_S192x192_0_192 : S192x576.Slices ![0, 192] S192x192
  slices_S192x576_S192x192_0_384 : S192x576.Slices ![0, 384] S192x192
  slices_S576_S192_0 : S576.Slices ![0] S192
  slices_S576_S192_192 : S576.Slices ![192] S192
  slices_S576_S192_384 : S576.Slices ![384] S192
  transposes_S192x192_S192x192_1_0 : S192x192.Transposes [1, 0] S192x192
  inb_S32x49x192_S32x49x192_0_0_0 : ∀ a, (![0, 0, 0] : Fin 3 → Nat) a + S32x49x192.size a ≤ S32x49x192.size a
  h_S32x49x192 : 0 < S32x49x192.numel
  shapeCasts_S32x49x192_S1568x192 : S32x49x192.ShapeCasts S1568x192
  bitsLt_bf16_f32 : FTy.bits .bf16 < FTy.bits .f32
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  broadcasts_S1x192_S1568x192 : S1x192.Broadcasts S1568x192
  shapeCasts_S1568x192_S32x49x192 : S1568x192.ShapeCasts S32x49x192
  shapeCasts_S32x49x192_S32x49x6x32 : S32x49x192.ShapeCasts S32x49x6x32
  transposes_S32x49x6x32_p0_2_1_3_S32x6x49x32 : S32x49x6x32.Transposes [0, 2, 1, 3] S32x6x49x32
  reduces_S32x6x49x32_S32x6x49 : S32x6x49x32.Reduces [3] S32x6x49
  shapeCasts_S32x6x49_S32x6x49x1 : S32x6x49.ShapeCasts S32x6x49x1
  broadcasts_S32x6x49x1_S32x6x49x32 : S32x6x49x1.Broadcasts S32x6x49x32
  shapeCasts_S32x6x49x32_S192x49x32 : S32x6x49x32.ShapeCasts S192x49x32
  shapeCasts_S192x49x49_S32x6x49x49 : S192x49x49.ShapeCasts S32x6x49x49
  inb_S6_S6_0 : ∀ a, (![0] : Fin 1 → Nat) a + S6.size a ≤ S6.size a
  h_S6 : 0 < S6.numel
  shapeCasts_S6_S6 : S6.ShapeCasts S6
  shapeCasts_S6_S1x6x1x1 : S6.ShapeCasts S1x6x1x1
  inb_S6x49x49_S6x49x49_0_0_0 : ∀ a, (![0, 0, 0] : Fin 3 → Nat) a + S6x49x49.size a ≤ S6x49x49.size a
  h_S6x49x49 : 0 < S6x49x49.numel
  shapeCasts_S6x49x49_S6x49x49 : S6x49x49.ShapeCasts S6x49x49
  shapeCasts_S6x49x49_S1x6x49x49 : S6x49x49.ShapeCasts S1x6x49x49
  inb_S32x49x49_S32x49x49_0_0_0 : ∀ a, (![0, 0, 0] : Fin 3 → Nat) a + S32x49x49.size a ≤ S32x49x49.size a
  h_S32x49x49 : 0 < S32x49x49.numel
  shapeCasts_S32x49x49_S32x1x49x49 : S32x49x49.ShapeCasts S32x1x49x49
  broadcasts_S1x6x1x1_S32x6x49x49 : S1x6x1x1.Broadcasts S32x6x49x49
  broadcasts_S1x6x49x49_S32x6x49x49 : S1x6x49x49.Broadcasts S32x6x49x49
  broadcasts_S32x1x49x49_S32x6x49x49 : S32x1x49x49.Broadcasts S32x6x49x49
  reduces_S32x6x49x49_S32x6x49 : S32x6x49x49.Reduces [3] S32x6x49
  broadcasts_S32x6x49x1_S32x6x49x49 : S32x6x49x1.Broadcasts S32x6x49x49
  shapeCasts_S32x6x49x49_S192x49x49 : S32x6x49x49.ShapeCasts S192x49x49
  shapeCasts_S192x49x32_S32x6x49x32 : S192x49x32.ShapeCasts S32x6x49x32
  transposes_S32x6x49x32_p0_2_1_3_S32x49x6x32 : S32x6x49x32.Transposes [0, 2, 1, 3] S32x49x6x32
  shapeCasts_S32x49x6x32_S1568x192 : S32x49x6x32.ShapeCasts S1568x192
  gather_S169x6_S2401x1_S2401x6_1_0_n_n_0_1_16_wf : GatherDims.WF S169x6 S2401x1 S2401x6 [1] [0] [] [0] [] 1 ![1, 6]
  dot_S1568x192_S192x192_S1568x192_1_0_0_1_n_n_wf : DotDims.WF S1568x192 S192x192 S1568x192 [1] [0] [0] [1] [] []
  dot_S192x49x32_S192x49x32_S192x49x49_2_2_1_1_0_0_wf : DotDims.WF S192x49x32 S192x49x32 S192x49x49 [2] [2] [1] [1] [0] [0]
  dot_S192x49x49_S192x49x32_S192x49x32_2_1_1_2_0_0_wf : DotDims.WF S192x49x49 S192x49x32 S192x49x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x192.size a ≤ S4096x49x192.size a
  hwx0_0 : ∀ i : grid0.Coords, EltTy.bits .f32 = 32 ∨ (Rect.block (s := S4096x49x192) S32x49x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x192.size a ≤ S192x192.size a
  hwx0_1 : ∀ i : grid0.Coords, EltTy.bits .f32 = 32 ∨ (Rect.block (s := S192x192) S192x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192.size a ≤ S192.size a
  hwx0_2 : ∀ i : grid0.Coords, EltTy.bits .f32 = 32 ∨ (Rect.block (s := S192) S192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x192.size a ≤ S192x192.size a
  hwx0_3 : ∀ i : grid0.Coords, EltTy.bits .f32 = 32 ∨ (Rect.block (s := S192x192) S192x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192.size a ≤ S192.size a
  hwx0_4 : ∀ i : grid0.Coords, EltTy.bits .f32 = 32 ∨ (Rect.block (s := S192) S192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x192.size a ≤ S192x192.size a
  hwx0_5 : ∀ i : grid0.Coords, EltTy.bits .f32 = 32 ∨ (Rect.block (s := S192x192) S192x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192.size a ≤ S192.size a
  hwx0_6 : ∀ i : grid0.Coords, EltTy.bits .f32 = 32 ∨ (Rect.block (s := S192) S192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6.size a ≤ S6.size a
  hwx0_7 : ∀ i : grid0.Coords, EltTy.bits .f32 = 32 ∨ (Rect.block (s := S6) S6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x49x49.size a ≤ S6x49x49.size a
  hwx0_8 : ∀ i : grid0.Coords, EltTy.bits .f32 = 32 ∨ (Rect.block (s := S6x49x49) S6x49x49.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x49x49.size a ≤ S64x49x49.size a
  hwx0_9 : ∀ i : grid0.Coords, EltTy.bits .f32 = 32 ∨ (Rect.block (s := S64x49x49) S32x49x49.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S192x192.size a ≤ S192x192.size a
  hwx0_10 : ∀ i : grid0.Coords, EltTy.bits .f32 = 32 ∨ (Rect.block (s := S192x192) S192x192.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S192.size a ≤ S192.size a
  hwx0_11 : ∀ i : grid0.Coords, EltTy.bits .f32 = 32 ∨ (Rect.block (s := S192) S192.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x49x192.size a ≤ S4096x49x192.size a
  hwx0_12 : ∀ i : grid0.Coords, EltTy.bits .f32 = 32 ∨ (Rect.block (s := S4096x49x192) S32x49x192.size (cc0_transform_12 i) (hinb0_12 i)).WholeWords (EltTy.packing .f32)

variable [Facts₀]

def gather_S169x6_S2401x1_S2401x6_1_0_n_n_0_1_16 : GatherDims S169x6 S2401x1 S2401x6 where
  offsetDims := [1]
  collapsedSliceDims := [0]
  operandBatchingDims := []
  startIndicesBatchingDims := []
  startIndexMap := [0]
  indexVectorDim := 1
  sliceSizes := ![1, 6]
  wf := gather_S169x6_S2401x1_S2401x6_1_0_n_n_0_1_16_wf
def dot_S1568x192_S192x192_S1568x192_1_0_0_1_n_n : DotDims S1568x192 S192x192 S1568x192 where
  lhsContracting := [1]
  rhsContracting := [0]
  lhsNonContracting := [0]
  rhsNonContracting := [1]
  lhsBatch := []
  rhsBatch := []
  wf := dot_S1568x192_S192x192_S1568x192_1_0_0_1_n_n_wf
def dot_S192x49x32_S192x49x32_S192x49x49_2_2_1_1_0_0 : DotDims S192x49x32 S192x49x32 S192x49x49 where
  lhsContracting := [2]
  rhsContracting := [2]
  lhsNonContracting := [1]
  rhsNonContracting := [1]
  lhsBatch := [0]
  rhsBatch := [0]
  wf := dot_S192x49x32_S192x49x32_S192x49x49_2_2_1_1_0_0_wf
def dot_S192x49x49_S192x49x32_S192x49x32_2_1_1_2_0_0 : DotDims S192x49x49 S192x49x32 S192x49x32 where
  lhsContracting := [2]
  rhsContracting := [1]
  lhsNonContracting := [1]
  rhsNonContracting := [2]
  lhsBatch := [0]
  rhsBatch := [0]
  wf := dot_S192x49x49_S192x49x32_S192x49x32_2_1_1_2_0_0_wf

abbrev win0_0 : Pipeline.Window sig grid0 :=
  Pipeline.Window.ofSpec (Memref.whole main_arg0) S32x49x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S192x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S192x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S192x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S6x49x49.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg1) S32x49x49.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v21) S192x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S32x49x192.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x49x192 : Shape := ⟨3, ![4096, 49, 192]⟩
abbrev S64x49x49 : Shape := ⟨3, ![64, 49, 49]⟩
abbrev S576x192 : Shape := ⟨2, ![576, 192]⟩
abbrev S576 : Shape := ⟨1, ![576]⟩
abbrev S6x1x1 : Shape := ⟨3, ![6, 1, 1]⟩
abbrev S169x6 : Shape := ⟨2, ![169, 6]⟩
abbrev S49x49 : Shape := ⟨2, ![49, 49]⟩
abbrev S192x192 : Shape := ⟨2, ![192, 192]⟩
abbrev S192 : Shape := ⟨1, ![192]⟩
abbrev S4096x49x576 : Shape := ⟨3, ![4096, 49, 576]⟩
abbrev S1x1x576 : Shape := ⟨3, ![1, 1, 576]⟩
abbrev S4096x49x3x6x32 : Shape := ⟨5, ![4096, 49, 3, 6, 32]⟩
abbrev S3x4096x6x49x32 : Shape := ⟨5, ![3, 4096, 6, 49, 32]⟩
abbrev S1x4096x6x49x32 : Shape := ⟨5, ![1, 4096, 6, 49, 32]⟩
abbrev S4096x6x49x32 : Shape := ⟨4, ![4096, 6, 49, 32]⟩
abbrev S_ : Shape := ⟨0, ![]⟩
abbrev S4096x6x49 : Shape := ⟨3, ![4096, 6, 49]⟩
abbrev S4096x6x49x1 : Shape := ⟨4, ![4096, 6, 49, 1]⟩
abbrev S4096x6x49x49 : Shape := ⟨4, ![4096, 6, 49, 49]⟩
abbrev S1x6x1x1 : Shape := ⟨4, ![1, 6, 1, 1]⟩
abbrev S2401 : Shape := ⟨1, ![2401]⟩
abbrev S2401x1 : Shape := ⟨2, ![2401, 1]⟩
abbrev S2401x6 : Shape := ⟨2, ![2401, 6]⟩
abbrev S49x49x6 : Shape := ⟨3, ![49, 49, 6]⟩
abbrev S6x49x49 : Shape := ⟨3, ![6, 49, 49]⟩
abbrev S1x6x49x49 : Shape := ⟨4, ![1, 6, 49, 49]⟩
abbrev S64x64x6x49x49 : Shape := ⟨5, ![64, 64, 6, 49, 49]⟩
abbrev S1x64x1x49x49 : Shape := ⟨5, ![1, 64, 1, 49, 49]⟩
abbrev S4096x49x6x32 : Shape := ⟨4, ![4096, 49, 6, 32]⟩
abbrev S1x1x192 : Shape := ⟨3, ![1, 1, 192]⟩

abbrev nBuf : Space → Nat
  | .hbm => 90
  | .vmem => 0
  | .smem => 0
  | _ => 0

abbrev bufTy : (tb : Table) → Fin (tcTables nBuf tb) → BufTy
  | .hbm, ⟨0, _⟩ => ⟨S4096x49x192, .f32⟩
  | .hbm, ⟨1, _⟩ => ⟨S64x49x49, .f32⟩
  | .hbm, ⟨2, _⟩ => ⟨S576x192, .f32⟩
  | .hbm, ⟨3, _⟩ => ⟨S576, .f32⟩
  | .hbm, ⟨4, _⟩ => ⟨S6x1x1, .f32⟩
  | .hbm, ⟨5, _⟩ => ⟨S169x6, .f32⟩
  | .hbm, ⟨6, _⟩ => ⟨S49x49, .i32⟩
  | .hbm, ⟨7, _⟩ => ⟨S192x192, .f32⟩
  | .hbm, ⟨8, _⟩ => ⟨S192, .f32⟩
  | .hbm, ⟨9, _⟩ => ⟨S4096x49x576, .f32⟩
  | .hbm, ⟨10, _⟩ => ⟨S1x1x576, .f32⟩
  | .hbm, ⟨11, _⟩ => ⟨S4096x49x576, .f32⟩
  | .hbm, ⟨12, _⟩ => ⟨S4096x49x576, .f32⟩
  | .hbm, ⟨13, _⟩ => ⟨S4096x49x3x6x32, .f32⟩
  | .hbm, ⟨14, _⟩ => ⟨S3x4096x6x49x32, .f32⟩
  | .hbm, ⟨15, _⟩ => ⟨S1x4096x6x49x32, .f32⟩
  | .hbm, ⟨16, _⟩ => ⟨S4096x6x49x32, .f32⟩
  | .hbm, ⟨17, _⟩ => ⟨S1x4096x6x49x32, .f32⟩
  | .hbm, ⟨18, _⟩ => ⟨S4096x6x49x32, .f32⟩
  | .hbm, ⟨19, _⟩ => ⟨S1x4096x6x49x32, .f32⟩
  | .hbm, ⟨20, _⟩ => ⟨S4096x6x49x32, .f32⟩
  | .hbm, ⟨21, _⟩ => ⟨S4096x6x49x32, .f32⟩
  | .hbm, ⟨22, _⟩ => ⟨S_, .f32⟩
  | .hbm, ⟨23, _⟩ => ⟨S4096x6x49, .f32⟩
  | .hbm, ⟨24, _⟩ => ⟨S4096x6x49x1, .f32⟩
  | .hbm, ⟨25, _⟩ => ⟨S4096x6x49x1, .f32⟩
  | .hbm, ⟨26, _⟩ => ⟨S_, .f32⟩
  | .hbm, ⟨27, _⟩ => ⟨S4096x6x49x1, .f32⟩
  | .hbm, ⟨28, _⟩ => ⟨S4096x6x49x1, .f32⟩
  | .hbm, ⟨29, _⟩ => ⟨S4096x6x49x32, .f32⟩
  | .hbm, ⟨30, _⟩ => ⟨S4096x6x49x32, .f32⟩
  | .hbm, ⟨31, _⟩ => ⟨S4096x6x49x32, .f32⟩
  | .hbm, ⟨32, _⟩ => ⟨S_, .f32⟩
  | .hbm, ⟨33, _⟩ => ⟨S4096x6x49, .f32⟩
  | .hbm, ⟨34, _⟩ => ⟨S4096x6x49x1, .f32⟩
  | .hbm, ⟨35, _⟩ => ⟨S4096x6x49x1, .f32⟩
  | .hbm, ⟨36, _⟩ => ⟨S_, .f32⟩
  | .hbm, ⟨37, _⟩ => ⟨S4096x6x49x1, .f32⟩
  | .hbm, ⟨38, _⟩ => ⟨S4096x6x49x1, .f32⟩
  | .hbm, ⟨39, _⟩ => ⟨S4096x6x49x32, .f32⟩
  | .hbm, ⟨40, _⟩ => ⟨S4096x6x49x32, .f32⟩
  | .hbm, ⟨41, _⟩ => ⟨S4096x6x49x49, .f32⟩
  | .hbm, ⟨42, _⟩ => ⟨S_, .f32⟩
  | .hbm, ⟨43, _⟩ => ⟨S6x1x1, .f32⟩
  | .hbm, ⟨44, _⟩ => ⟨S6x1x1, .f32⟩
  | .hbm, ⟨45, _⟩ => ⟨S6x1x1, .f32⟩
  | .hbm, ⟨46, _⟩ => ⟨S1x6x1x1, .f32⟩
  | .hbm, ⟨47, _⟩ => ⟨S4096x6x49x49, .f32⟩
  | .hbm, ⟨48, _⟩ => ⟨S4096x6x49x49, .f32⟩
  | .hbm, ⟨49, _⟩ => ⟨S2401, .i32⟩
  | .hbm, ⟨50, _⟩ => ⟨S_, .i32⟩
  | .hbm, ⟨51, _⟩ => ⟨S2401, .i32⟩
  | .hbm, ⟨52, _⟩ => ⟨S2401, .i1⟩
  | .hbm, ⟨53, _⟩ => ⟨S_, .i32⟩
  | .hbm, ⟨54, _⟩ => ⟨S2401, .i32⟩
  | .hbm, ⟨55, _⟩ => ⟨S2401, .i32⟩
  | .hbm, ⟨56, _⟩ => ⟨S2401, .i32⟩
  | .hbm, ⟨57, _⟩ => ⟨S2401x1, .i32⟩
  | .hbm, ⟨58, _⟩ => ⟨S2401x6, .f32⟩
  | .hbm, ⟨59, _⟩ => ⟨S49x49x6, .f32⟩
  | .hbm, ⟨60, _⟩ => ⟨S6x49x49, .f32⟩
  | .hbm, ⟨61, _⟩ => ⟨S1x6x49x49, .f32⟩
  | .hbm, ⟨62, _⟩ => ⟨S4096x6x49x49, .f32⟩
  | .hbm, ⟨63, _⟩ => ⟨S4096x6x49x49, .f32⟩
  | .hbm, ⟨64, _⟩ => ⟨S64x64x6x49x49, .f32⟩
  | .hbm, ⟨65, _⟩ => ⟨S1x64x1x49x49, .f32⟩
  | .hbm, ⟨66, _⟩ => ⟨S64x64x6x49x49, .f32⟩
  | .hbm, ⟨67, _⟩ => ⟨S64x64x6x49x49, .f32⟩
  | .hbm, ⟨68, _⟩ => ⟨S4096x6x49x49, .f32⟩
  | .hbm, ⟨69, _⟩ => ⟨S_, .f32⟩
  | .hbm, ⟨70, _⟩ => ⟨S4096x6x49, .f32⟩
  | .hbm, ⟨71, _⟩ => ⟨S_, .f32⟩
  | .hbm, ⟨72, _⟩ => ⟨S4096x6x49, .f32⟩
  | .hbm, ⟨73, _⟩ => ⟨S4096x6x49, .f32⟩
  | .hbm, ⟨74, _⟩ => ⟨S4096x6x49x1, .f32⟩
  | .hbm, ⟨75, _⟩ => ⟨S4096x6x49x49, .f32⟩
  | .hbm, ⟨76, _⟩ => ⟨S4096x6x49x49, .f32⟩
  | .hbm, ⟨77, _⟩ => ⟨S4096x6x49x49, .f32⟩
  | .hbm, ⟨78, _⟩ => ⟨S_, .f32⟩
  | .hbm, ⟨79, _⟩ => ⟨S4096x6x49, .f32⟩
  | .hbm, ⟨80, _⟩ => ⟨S4096x6x49x1, .f32⟩
  | .hbm, ⟨81, _⟩ => ⟨S4096x6x49x49, .f32⟩
  | .hbm, ⟨82, _⟩ => ⟨S4096x6x49x49, .f32⟩
  | .hbm, ⟨83, _⟩ => ⟨S4096x6x49x32, .f32⟩
  | .hbm, ⟨84, _⟩ => ⟨S4096x49x6x32, .f32⟩
  | .hbm, ⟨85, _⟩ => ⟨S4096x49x192, .f32⟩
  | .hbm, ⟨86, _⟩ => ⟨S4096x49x192, .f32⟩
  | .hbm, ⟨87, _⟩ => ⟨S1x1x192, .f32⟩
  | .hbm, ⟨88, _⟩ => ⟨S4096x49x192, .f32⟩
  | .hbm, ⟨89, _⟩ => ⟨S4096x49x192, .f32⟩
  | _, _ => ⟨S4096x49x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c : Ref sig .tc := ⟨.hbm, 50, rfl⟩
abbrev main_v30 : Ref sig .tc := ⟨.hbm, 51, rfl⟩
abbrev main_v31 : Ref sig .tc := ⟨.hbm, 52, rfl⟩
abbrev main_c_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  bcast_S576_S1x1x576_2 : S576.BroadcastsInDim S1x1x576 (![2] : Fin 1 → Fin S1x1x576.rank)
  bcast_S1x1x576_S4096x49x576_0_1_2 : S1x1x576.BroadcastsInDim S4096x49x576 (![0, 1, 2] : Fin 3 → Fin S4096x49x576.rank)
  shapeCasts_S4096x49x576_S4096x49x3x6x32 : S4096x49x576.ShapeCasts S4096x49x3x6x32
  transposes_S4096x49x3x6x32_S3x4096x6x49x32_2_0_3_1_4 : S4096x49x3x6x32.Transposes [2, 0, 3, 1, 4] S3x4096x6x49x32
  slices_S3x4096x6x49x32_S1x4096x6x49x32_0_0_0_0_0 : S3x4096x6x49x32.Slices ![0, 0, 0, 0, 0] S1x4096x6x49x32
  shapeCasts_S1x4096x6x49x32_S4096x6x49x32 : S1x4096x6x49x32.ShapeCasts S4096x6x49x32
  slices_S3x4096x6x49x32_S1x4096x6x49x32_1_0_0_0_0 : S3x4096x6x49x32.Slices ![1, 0, 0, 0, 0] S1x4096x6x49x32
  slices_S3x4096x6x49x32_S1x4096x6x49x32_2_0_0_0_0 : S3x4096x6x49x32.Slices ![2, 0, 0, 0, 0] S1x4096x6x49x32
  reducesTo_S4096x6x49x32_S4096x6x49_d3 : S4096x6x49x32.ReducesTo [3] S4096x6x49
  h_S_ : 0 < S_.numel
  bcast_S4096x6x49_S4096x6x49x1_0_1_2 : S4096x6x49.BroadcastsInDim S4096x6x49x1 (![0, 1, 2] : Fin 3 → Fin S4096x6x49x1.rank)
  bcast_S_S4096x6x49x1 : S_.BroadcastsInDim S4096x6x49x1 (![] : Fin 0 → Fin S4096x6x49x1.rank)
  bcast_S4096x6x49x1_S4096x6x49x32_0_1_2_3 : S4096x6x49x1.BroadcastsInDim S4096x6x49x32 (![0, 1, 2, 3] : Fin 4 → Fin S4096x6x49x32.rank)
  bcast_S_S6x1x1 : S_.BroadcastsInDim S6x1x1 (![] : Fin 0 → Fin S6x1x1.rank)
  bcast_S6x1x1_S1x6x1x1_1_2_3 : S6x1x1.BroadcastsInDim S1x6x1x1 (![1, 2, 3] : Fin 3 → Fin S1x6x1x1.rank)
  bcast_S1x6x1x1_S4096x6x49x49_0_1_2_3 : S1x6x1x1.BroadcastsInDim S4096x6x49x49 (![0, 1, 2, 3] : Fin 4 → Fin S4096x6x49x49.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x6_S49x49x6 : S2401x6.ShapeCasts S49x49x6
  transposes_S49x49x6_S6x49x49_2_0_1 : S49x49x6.Transposes [2, 0, 1] S6x49x49
  bcast_S6x49x49_S1x6x49x49_1_2_3 : S6x49x49.BroadcastsInDim S1x6x49x49 (![1, 2, 3] : Fin 3 → Fin S1x6x49x49.rank)
  bcast_S1x6x49x49_S4096x6x49x49_0_1_2_3 : S1x6x49x49.BroadcastsInDim S4096x6x49x49 (![0, 1, 2, 3] : Fin 4 → Fin S4096x6x49x49.rank)
  shapeCasts_S4096x6x49x49_S64x64x6x49x49 : S4096x6x49x49.ShapeCasts S64x64x6x49x49
  bcast_S64x49x49_S1x64x1x49x49_1_3_4 : S64x49x49.BroadcastsInDim S1x64x1x49x49 (![1, 3, 4] : Fin 3 → Fin S1x64x1x49x49.rank)
  bcast_S1x64x1x49x49_S64x64x6x49x49_0_1_2_3_4 : S1x64x1x49x49.BroadcastsInDim S64x64x6x49x49 (![0, 1, 2, 3, 4] : Fin 5 → Fin S64x64x6x49x49.rank)
  shapeCasts_S64x64x6x49x49_S4096x6x49x49 : S64x64x6x49x49.ShapeCasts S4096x6x49x49
  reducesTo_S4096x6x49x49_S4096x6x49_d3 : S4096x6x49x49.ReducesTo [3] S4096x6x49
  bcast_S_S4096x6x49 : S_.BroadcastsInDim S4096x6x49 (![] : Fin 0 → Fin S4096x6x49.rank)
  bcast_S4096x6x49x1_S4096x6x49x49_0_1_2_3 : S4096x6x49x1.BroadcastsInDim S4096x6x49x49 (![0, 1, 2, 3] : Fin 4 → Fin S4096x6x49x49.rank)
  transposes_S4096x6x49x32_S4096x49x6x32_0_2_1_3 : S4096x6x49x32.Transposes [0, 2, 1, 3] S4096x49x6x32
  shapeCasts_S4096x49x6x32_S4096x49x192 : S4096x49x6x32.ShapeCasts S4096x49x192
  bcast_S192_S1x1x192_2 : S192.BroadcastsInDim S1x1x192 (![2] : Fin 1 → Fin S1x1x192.rank)
  bcast_S1x1x192_S4096x49x192_0_1_2 : S1x1x192.BroadcastsInDim S4096x49x192 (![0, 1, 2] : Fin 3 → Fin S4096x49x192.rank)
  dot_S4096x49x192_S576x192_S4096x49x576_2_1_01_0_n_n_wf : DotDims.WF S4096x49x192 S576x192 S4096x49x576 [2] [1] [0, 1] [0] [] []
  dot_S4096x6x49x32_S4096x6x49x32_S4096x6x49x49_3_3_2_2_01_01_wf : DotDims.WF S4096x6x49x32 S4096x6x49x32 S4096x6x49x49 [3] [3] [2] [2] [0, 1] [0, 1]
  gather_S169x6_S2401x1_S2401x6_1_0_n_n_0_1_16_wf : GatherDims.WF S169x6 S2401x1 S2401x6 [1] [0] [] [0] [] 1 ![1, 6]
  dot_S4096x6x49x49_S4096x6x49x32_S4096x6x49x32_3_2_2_3_01_01_wf : DotDims.WF S4096x6x49x49 S4096x6x49x32 S4096x6x49x32 [3] [2] [2] [3] [0, 1] [0, 1]
  dot_S4096x49x192_S192x192_S4096x49x192_2_1_01_0_n_n_wf : DotDims.WF S4096x49x192 S192x192 S4096x49x192 [2] [1] [0, 1] [0] [] []

variable [Facts₀]

def dot_S4096x49x192_S576x192_S4096x49x576_2_1_01_0_n_n : DotDims S4096x49x192 S576x192 S4096x49x576 where
  lhsContracting := [2]
  rhsContracting := [1]
  lhsNonContracting := [0, 1]
  rhsNonContracting := [0]
  lhsBatch := []
  rhsBatch := []
  wf := dot_S4096x49x192_S576x192_S4096x49x576_2_1_01_0_n_n_wf
def dot_S4096x6x49x32_S4096x6x49x32_S4096x6x49x49_3_3_2_2_01_01 : DotDims S4096x6x49x32 S4096x6x49x32 S4096x6x49x49 where
  lhsContracting := [3]
  rhsContracting := [3]
  lhsNonContracting := [2]
  rhsNonContracting := [2]
  lhsBatch := [0, 1]
  rhsBatch := [0, 1]
  wf := dot_S4096x6x49x32_S4096x6x49x32_S4096x6x49x49_3_3_2_2_01_01_wf
def gather_S169x6_S2401x1_S2401x6_1_0_n_n_0_1_16 : GatherDims S169x6 S2401x1 S2401x6 where
  offsetDims := [1]
  collapsedSliceDims := [0]
  operandBatchingDims := []
  startIndicesBatchingDims := []
  startIndexMap := [0]
  indexVectorDim := 1
  sliceSizes := ![1, 6]
  wf := gather_S169x6_S2401x1_S2401x6_1_0_n_n_0_1_16_wf
def dot_S4096x6x49x49_S4096x6x49x32_S4096x6x49x32_3_2_2_3_01_01 : DotDims S4096x6x49x49 S4096x6x49x32 S4096x6x49x32 where
  lhsContracting := [3]
  rhsContracting := [2]
  lhsNonContracting := [2]
  rhsNonContracting := [3]
  lhsBatch := [0, 1]
  rhsBatch := [0, 1]
  wf := dot_S4096x6x49x49_S4096x6x49x32_S4096x6x49x32_3_2_2_3_01_01_wf
def dot_S4096x49x192_S192x192_S4096x49x192_2_1_01_0_n_n : DotDims S4096x49x192 S192x192 S4096x49x192 where
  lhsContracting := [2]
  rhsContracting := [1]
  lhsNonContracting := [0, 1]
  rhsNonContracting := [0]
  lhsBatch := []
  rhsBatch := []
  wf := dot_S4096x49x192_S192x192_S4096x49x192_2_1_01_0_n_n_wf

class Facts : Prop extends Facts₀ where

variable [Facts]
-- ==== Proof.Spec.lean ====
/-
  Window attention with cosine similarity, as one function of the argument arrays.

  One window holds 49 tokens of 192 channels; the channels are 6 heads of 32. For a window's rows X (token, channel):
    * three affine layers give the queries, keys and values:  Y = X · W + b  (W read input-channel first);
    * per head, each query and key vector is divided by its Euclidean length, the length clamped below by a small ε;
    * the score of query token n against key token m is the dot product of the two unit vectors, times the head's
      scale, plus a positional term B(h, n, m), plus the window's mask M(n, m);
    * each row of scores is turned into weights: exp of the score minus the row's largest score, over the sum of those
      exponentials (the largest score taken from −∞);
    * the head's output at token n is the weighted sum of the value vectors; the heads' outputs are laid side by side
      (channel c belongs to head c / 32, lane c % 32) and go through a last affine layer.
  Window b of the batch uses mask number b % 64.

  Everything is stated on the extended reals with the exact operations. Sums are finite sums, so the order of summation
  and any blocking of the rows plays no role; no cancellation or distributivity is used anywhere, so no finiteness of the
  inputs is needed.
-/
import Idealize.ShloMosaic.PureOps.Ideal
import Idealize.ShloMosaic.PureOps.Ideal.Laws
import Idealize.ShloMosaic.Lib.ValueIdx

noncomputable section

namespace Cert.WindowAttn

open Idealize.ShloMosaic Idealize.ShloMosaic.ValueIdx
open scoped BigOperators

/-- Channel number of lane d of head h: h · 32 + d. -/
def chan (h : Fin 6) (d : Fin 32) : Fin 192 := ⟨h.val * 32 + d.val, by have := h.isLt; have := d.isLt; omega⟩

/-- Head of a channel: c / 32. -/
def headOf (c : Fin 192) : Fin 6 := ⟨c.val / 32, by have := c.isLt; omega⟩

/-- Lane of a channel inside its head: c % 32. -/
def laneOf (c : Fin 192) : Fin 32 := ⟨c.val % 32, Nat.mod_lt _ (by decide)⟩

theorem chan_headOf_laneOf (c : Fin 192) : chan (headOf c) (laneOf c) = c :=
  Fin.ext (by show c.val / 32 * 32 + c.val % 32 = c.val; omega)

/-- One output of an affine layer: the row x against column o of W, plus the bias at o. -/
def lin (x : Fin 192 → EReal) (W : Fin 192 → Fin 192 → EReal) (b : Fin 192 → EReal) (o : Fin 192) : EReal :=
  (∑ c : Fin 192, x c * W c o) + b o

/-- The Euclidean length of a 32-vector, clamped below by ε. -/
def len (ε : EReal) (r : Fin 32 → EReal) : EReal := max (Ideal.sqrt (∑ d : Fin 32, r d * r d)) ε

/-- The cosine of two 32-vectors (each divided by its clamped length). -/
def cosine (ε : EReal) (q k : Fin 32 → EReal) : EReal :=
  ∑ d : Fin 32, Ideal.div (q d) (len ε q) * Ideal.div (k d) (len ε k)

/-- The largest entry of a row of 49 scores, taken from the value ν (the word of −∞). -/
def rowTop (ν : EReal) (L : Fin 49 → EReal) : EReal := max ν ((Finset.univ : Finset (Fin 49)).fold max ν L)

/-- The weight of entry m of a row of scores. -/
def soft (ν : EReal) (L : Fin 49 → EReal) (m : Fin 49) : EReal :=
  Ideal.div (Ideal.exp (L m - rowTop ν L)) (∑ m' : Fin 49, Ideal.exp (L m' - rowTop ν L))

/-- The score of query token n against key token m in head h. -/
def score (ε : EReal) (Yq Yk : Fin 49 → Fin 192 → EReal) (s : Fin 6 → EReal) (B : Fin 6 → Fin 49 → Fin 49 → EReal)
    (M : Fin 49 → Fin 49 → EReal) (h : Fin 6) (n m : Fin 49) : EReal :=
  cosine ε (fun d => Yq n (chan h d)) (fun d => Yk m (chan h d)) * s h + B h n m + M n m

/-- Head h's output at token n, lane d: the weighted sum of the value vectors. -/
def mix (ε ν : EReal) (Yq Yk Yv : Fin 49 → Fin 192 → EReal) (s : Fin 6 → EReal) (B : Fin 6 → Fin 49 → Fin 49 → EReal)
    (M : Fin 49 → Fin 49 → EReal) (h : Fin 6) (n : Fin 49) (d : Fin 32) : EReal :=
  ∑ m : Fin 49, soft ν (score ε Yq Yk s B M h n) m * Yv m (chan h d)

/-- One window: rows X, the three input layers, the scales, the positional term, the mask, the output layer. -/
def window (ε ν : EReal) (X : Fin 49 → Fin 192 → EReal)
    (Wq : Fin 192 → Fin 192 → EReal) (bq : Fin 192 → EReal) (Wk : Fin 192 → Fin 192 → EReal) (bk : Fin 192 → EReal)
    (Wv : Fin 192 → Fin 192 → EReal) (bv : Fin 192 → EReal) (s : Fin 6 → EReal) (B : Fin 6 → Fin 49 → Fin 49 → EReal)
    (M : Fin 49 → Fin 49 → EReal) (Wp : Fin 192 → Fin 192 → EReal) (bp : Fin 192 → EReal) (n : Fin 49) (o : Fin 192) : EReal :=
  lin (fun c => mix ε ν (fun n' => lin (X n') Wq bq) (fun n' => lin (X n') Wk bk) (fun n' => lin (X n') Wv bv) s B M
        (headOf c) n (laneOf c)) Wp bp o

/-- The clamp ε of the lengths: the single-precision word nearest 1e-12. -/
def eps : EReal := Ideal.ofBits .f32 0x2B8CBCCC#32

/-- The word of −∞ the row maxima start from. -/
def negInf : EReal := Ideal.ofBits .f32 0xFF800000#32

/-- Row o of the stacked input weights [576, 192], block number blk (0 queries, 1 keys, 2 values), read input-channel first. -/
def inW (blk : ℕ) (hblk : blk < 3) (w : (⟨2, ![576, 192]⟩ : Shape).Idx → EReal) (c o : Fin 192) : EReal :=
  w (ix2 (⟨blk * 192 + o.val, by have := o.isLt; omega⟩ : Fin 576) c)

/-- Entry o of block blk of the stacked input biases [576]. -/
def inB (blk : ℕ) (hblk : blk < 3) (b : (⟨1, ![576]⟩ : Shape).Idx → EReal) (o : Fin 192) : EReal :=
  b (ix1 (⟨blk * 192 + o.val, by have := o.isLt; omega⟩ : Fin 576))

/-- THE RESULT: entry (b, n, o) of the [4096, 49, 192] output, from the rows of window b, mask b % 64, the stacked input
    layer, the per-head scales sc (held as [6, 1, 1]), the positional term bias (held as [6, 49, 49]) and the output layer
    (its weights held output-channel first, like the input layer's). -/
def result (x : (⟨3, ![4096, 49, 192]⟩ : Shape).Idx → EReal) (mask : (⟨3, ![64, 49, 49]⟩ : Shape).Idx → EReal)
    (w : (⟨2, ![576, 192]⟩ : Shape).Idx → EReal) (b : (⟨1, ![576]⟩ : Shape).Idx → EReal)
    (sc : (⟨3, ![6, 1, 1]⟩ : Shape).Idx → EReal) (bias : (⟨3, ![6, 49, 49]⟩ : Shape).Idx → EReal)
    (pw : (⟨2, ![192, 192]⟩ : Shape).Idx → EReal) (pb : (⟨1, ![192]⟩ : Shape).Idx → EReal) :
    (⟨3, ![4096, 49, 192]⟩ : Shape).Idx → EReal :=
  fun i => window eps negInf (fun n c => x (ix3 (i 0) n c))
    (inW 0 (by decide) w) (inB 0 (by decide) b) (inW 1 (by decide) w) (inB 1 (by decide) b)
    (inW 2 (by decide) w) (inB 2 (by decide) b)
    (fun h => sc (ix3 h (0 : Fin 1) (0 : Fin 1))) (fun h n m => bias (ix3 h n m))
    (fun n m => mask (ix3 (⟨(i 0).val % 64, Nat.mod_lt _ (by decide)⟩ : Fin 64) n m))
    (fun c o => pw (ix2 o c)) (fun o => pb (ix1 o)) (i 1) (i 2)

end Cert.WindowAttn

end
-- ==== Proof.KernelOutStmt.lean ====
/-
  What one grid point leaves in the output block, stated once: entry (j, n, o) of the [32, 49, 192] block the body stores is
  the window function of window j of the point's 32 rows of x, of the three input layers and the output layer as the body
  finds them (weights already input-channel first), the six scales, the positional term and row j of the point's 32 masks.
-/
import proofs.«103782_j27470610825456_2_alg».proof.Proof.Gen.KernelIdeal.Frame
import proofs.«103782_j27470610825456_2_alg».proof.Proof.Spec

noncomputable section

namespace Cert.KernelIdeal.BlockValue

open Cert.KernelIdeal Cert.KernelIdeal.Gen Idealize.ShloMosaic Idealize.ShloMosaic.ValueIdx Cert.WindowAttn

/-- The window function of the blocks a grid point holds, at window j of the block. -/
def blockFn (x0 : Vec Ideal S32x49x192 .f32) (x1 : Vec Ideal S192x192 .f32) (x2 : Vec Ideal S192 .f32)
    (x3 : Vec Ideal S192x192 .f32) (x4 : Vec Ideal S192 .f32) (x5 : Vec Ideal S192x192 .f32) (x6 : Vec Ideal S192 .f32)
    (x7 : Vec Ideal S6 .f32) (x8 : Vec Ideal S6x49x49 .f32) (x9 : Vec Ideal S32x49x49 .f32) (x10 : Vec Ideal S192x192 .f32)
    (x11 : Vec Ideal S192 .f32) (j : Fin 32) (n : Fin 49) (o : Fin 192) : EReal :=
  window eps negInf (fun n' c => x0 (ix3 j n' c)) (fun c o' => x1 (ix2 c o')) (fun o' => x2 (ix1 o'))
    (fun c o' => x3 (ix2 c o')) (fun o' => x4 (ix1 o')) (fun c o' => x5 (ix2 c o')) (fun o' => x6 (ix1 o'))
    (fun h => x7 (ix1 h)) (fun h n' m => x8 (ix3 h n' m)) (fun n' m => x9 (ix3 j n' m))
    (fun c o' => x10 (ix2 c o')) (fun o' => x11 (ix1 o')) n o

/-- The claim about the body: its one store, read at (j, n, o), is the window function of the blocks. -/
def OutAt : Prop :=
  ∀ (x0 : Vec Ideal S32x49x192 .f32) (x1 : Vec Ideal S192x192 .f32) (x2 : Vec Ideal S192 .f32)
    (x3 : Vec Ideal S192x192 .f32) (x4 : Vec Ideal S192 .f32) (x5 : Vec Ideal S192x192 .f32) (x6 : Vec Ideal S192 .f32)
    (x7 : Vec Ideal S6 .f32) (x8 : Vec Ideal S6x49x49 .f32) (x9 : Vec Ideal S32x49x49 .f32) (x10 : Vec Ideal S192x192 .f32)
    (x11 : Vec Ideal S192 .f32) (j : Fin 32) (n : Fin 49) (o : Fin 192),
    out0_12 (F := Ideal) x0 x1 x2 x3 x4 x5 x6 x7 x8 x9 x10 x11 (ix3 j n o) = blockFn x0 x1 x2 x3 x4 x5 x6 x7 x8 x9 x10 x11 j n o

end Cert.KernelIdeal.BlockValue

end
-- ==== Proof.KernelLayout.lean ====
/-
  The re-laying operations of the window-attention body, each read at explicit coordinates.

  A block holds 32 windows of 49 tokens; its 1568 = 32 · 49 rows are numbered window-major (row j · 49 + n), its 192 channels
  head-major (channel h · 32 + d), and the 192 = 32 · 6 (window, head) pairs window-major (pair j · 6 + h). Every cast below
  keeps the row-major position, so each is one identity between such numbers; a transpose swaps two coordinates; a broadcast
  repeats along the axes of extent one; a sum or a maximum over the last axis runs over that axis's coordinate.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«103782_j27470610825456_2_alg».proof.Proof.Spec

noncomputable section

namespace Cert.WindowAttn.Layout

open Idealize.ShloMosaic Idealize.ShloMosaic.ValueIdx Cert.WindowAttn
open scoped BigOperators

variable {α : Type}

/-- Row of token n of window j among the block's 1568 rows. -/
def row (j : Fin 32) (n : Fin 49) : Fin 1568 := ⟨j.val * 49 + n.val, by have := j.isLt; have := n.isLt; omega⟩

/-- Number of the pair (window j, head h) among the block's 192 pairs. -/
def pair (j : Fin 32) (h : Fin 6) : Fin 192 := ⟨j.val * 6 + h.val, by have := j.isLt; have := h.isLt; omega⟩

/-- [32, 49, 192] → [1568, 192]: row j · 49 + n is token n of window j. -/
theorem rows_of_block (x : (⟨3, ![32, 49, 192]⟩ : Shape).Idx → α)
    (hc : (⟨3, ![32, 49, 192]⟩ : Shape).ShapeCasts ⟨2, ![1568, 192]⟩) (j : Fin 32) (n : Fin 49) (c : Fin 192) :
    shapeCast ⟨2, ![1568, 192]⟩ x hc (ix2 (row j n) c) = x (ix3 j n c) :=
  shapeCast_apply x hc (ix2 (row j n) c) (ix3 j n c) (by
    rw [Shape.rowMajor_val_three, Shape.rowMajor_val_two]
    show (j.val * 49 + n.val) * 192 + c.val = (j.val * 49 + n.val) * 192 + c.val
    rfl)

/-- [1568, 192] → [32, 49, 192]: the same numbering read the other way. -/
theorem block_of_rows (x : (⟨2, ![1568, 192]⟩ : Shape).Idx → α)
    (hc : (⟨2, ![1568, 192]⟩ : Shape).ShapeCasts ⟨3, ![32, 49, 192]⟩) (j : Fin 32) (n : Fin 49) (c : Fin 192) :
    shapeCast ⟨3, ![32, 49, 192]⟩ x hc (ix3 j n c) = x (ix2 (row j n) c) :=
  shapeCast_apply x hc (ix3 j n c) (ix2 (row j n) c) (by
    rw [Shape.rowMajor_val_three, Shape.rowMajor_val_two]
    show (j.val * 49 + n.val) * 192 + c.val = (j.val * 49 + n.val) * 192 + c.val
    rfl)

/-- [32, 49, 192] → [32, 49, 6, 32]: lane d of head h is channel h · 32 + d. -/
theorem heads_of_channels (x : (⟨3, ![32, 49, 192]⟩ : Shape).Idx → α)
    (hc : (⟨3, ![32, 49, 192]⟩ : Shape).ShapeCasts ⟨4, ![32, 49, 6, 32]⟩) (j : Fin 32) (n : Fin 49) (h : Fin 6) (d : Fin 32) :
    shapeCast ⟨4, ![32, 49, 6, 32]⟩ x hc (ix4 j n h d) = x (ix3 j n (chan h d)) :=
  shapeCast_apply x hc (ix4 j n h d) (ix3 j n (chan h d)) (by
    rw [Shape.rowMajor_val_three, Shape.rowMajor_val_four]
    show (j.val * 49 + n.val) * 192 + (h.val * 32 + d.val) = ((j.val * 49 + n.val) * 6 + h.val) * 32 + d.val
    omega)

/-- [32, 49, 6, 32] → [1568, 192]: channel c of row j · 49 + n is lane c % 32 of head c / 32. -/
theorem channels_of_heads (x : (⟨4, ![32, 49, 6, 32]⟩ : Shape).Idx → α)
    (hc : (⟨4, ![32, 49, 6, 32]⟩ : Shape).ShapeCasts ⟨2, ![1568, 192]⟩) (j : Fin 32) (n : Fin 49) (c : Fin 192) :
    shapeCast ⟨2, ![1568, 192]⟩ x hc (ix2 (row j n) c) = x (ix4 j n (headOf c) (laneOf c)) :=
  shapeCast_apply x hc (ix2 (row j n) c) (ix4 j n (headOf c) (laneOf c)) (by
    rw [Shape.rowMajor_val_four, Shape.rowMajor_val_two]
    show ((j.val * 49 + n.val) * 6 + c.val / 32) * 32 + c.val % 32 = (j.val * 49 + n.val) * 192 + c.val
    omega)

/-- Tokens and heads swapped, [32, 49, 6, 32] → [32, 6, 49, 32]. -/
theorem heads_first (x : (⟨4, ![32, 49, 6, 32]⟩ : Shape).Idx → α)
    (ht : (⟨4, ![32, 49, 6, 32]⟩ : Shape).Transposes [0, 2, 1, 3] ⟨4, ![32, 6, 49, 32]⟩)
    (j : Fin 32) (h : Fin 6) (n : Fin 49) (d : Fin 32) :
    transpose ⟨4, ![32, 6, 49, 32]⟩ [0, 2, 1, 3] x ht (ix4 j h n d) = x (ix4 j n h d) :=
  transpose_apply [0, 2, 1, 3] x ht (ix4 j h n d) (ix4 j n h d) (fun b => by
    match b with
    | ⟨0, _⟩ => rfl
    | ⟨1, _⟩ => rfl
    | ⟨2, _⟩ => rfl
    | ⟨3, _⟩ => rfl)

/-- Heads and tokens swapped back, [32, 6, 49, 32] → [32, 49, 6, 32]. -/
theorem tokens_first (x : (⟨4, ![32, 6, 49, 32]⟩ : Shape).Idx → α)
    (ht : (⟨4, ![32, 6, 49, 32]⟩ : Shape).Transposes [0, 2, 1, 3] ⟨4, ![32, 49, 6, 32]⟩)
    (j : Fin 32) (n : Fin 49) (h : Fin 6) (d : Fin 32) :
    transpose ⟨4, ![32, 49, 6, 32]⟩ [0, 2, 1, 3] x ht (ix4 j n h d) = x (ix4 j h n d) :=
  transpose_apply [0, 2, 1, 3] x ht (ix4 j n h d) (ix4 j h n d) (fun b => by
    match b with
    | ⟨0, _⟩ => rfl
    | ⟨1, _⟩ => rfl
    | ⟨2, _⟩ => rfl
    | ⟨3, _⟩ => rfl)

/-- [32, 6, 49, K] → [192, 49, K]: pair j · 6 + h. -/
theorem pairs_of_heads {K : ℕ} (x : (⟨4, ![32, 6, 49, K]⟩ : Shape).Idx → α)
    (hc : (⟨4, ![32, 6, 49, K]⟩ : Shape).ShapeCasts ⟨3, ![192, 49, K]⟩) (j : Fin 32) (h : Fin 6) (n : Fin 49) (d : Fin K) :
    shapeCast ⟨3, ![192, 49, K]⟩ x hc (ix3 (pair j h) n d) = x (ix4 j h n d) :=
  shapeCast_apply x hc (ix3 (pair j h) n d) (ix4 j h n d) (by
    rw [Shape.rowMajor_val_four, Shape.rowMajor_val_three]
    show ((j.val * 6 + h.val) * 49 + n.val) * K + d.val = ((j.val * 6 + h.val) * 49 + n.val) * K + d.val
    rfl)

/-- [192, 49, K] → [32, 6, 49, K]: the same numbering read the other way. -/
theorem heads_of_pairs {K : ℕ} (x : (⟨3, ![192, 49, K]⟩ : Shape).Idx → α)
    (hc : (⟨3, ![192, 49, K]⟩ : Shape).ShapeCasts ⟨4, ![32, 6, 49, K]⟩) (j : Fin 32) (h : Fin 6) (n : Fin 49) (d : Fin K) :
    shapeCast ⟨4, ![32, 6, 49, K]⟩ x hc (ix4 j h n d) = x (ix3 (pair j h) n d) :=
  shapeCast_apply x hc (ix4 j h n d) (ix3 (pair j h) n d) (by
    rw [Shape.rowMajor_val_three, Shape.rowMajor_val_four]
    show ((j.val * 6 + h.val) * 49 + n.val) * K + d.val = ((j.val * 6 + h.val) * 49 + n.val) * K + d.val
    rfl)

/-- A per-row number kept as a last axis of extent one, [32, 6, 49] → [32, 6, 49, 1]. -/
theorem keep_lane (x : (⟨3, ![32, 6, 49]⟩ : Shape).Idx → α)
    (hc : (⟨3, ![32, 6, 49]⟩ : Shape).ShapeCasts ⟨4, ![32, 6, 49, 1]⟩) (j : Fin 32) (h : Fin 6) (n : Fin 49) :
    shapeCast ⟨4, ![32, 6, 49, 1]⟩ x hc (ix4 j h n (0 : Fin 1)) = x (ix3 j h n) :=
  shapeCast_apply x hc (ix4 j h n (0 : Fin 1)) (ix3 j h n) (by
    rw [Shape.rowMajor_val_three, Shape.rowMajor_val_four]
    show (j.val * 6 + h.val) * 49 + n.val = ((j.val * 6 + h.val) * 49 + n.val) * 1 + 0
    omega)

/-- … and repeated along the lanes, [32, 6, 49, 1] → [32, 6, 49, L]. -/
theorem along_lanes {L : ℕ} (hL : L ≠ 1) (x : (⟨4, ![32, 6, 49, 1]⟩ : Shape).Idx → α)
    (hb : (⟨4, ![32, 6, 49, 1]⟩ : Shape).Broadcasts ⟨4, ![32, 6, 49, L]⟩) (j : Fin 32) (h : Fin 6) (n : Fin 49) (d : Fin L) :
    broadcastTo ⟨4, ![32, 6, 49, L]⟩ x hb (ix4 j h n d) = x (ix4 j h n (0 : Fin 1)) :=
  broadcastTo_apply x hb (ix4 j h n d) (ix4 j h n (0 : Fin 1)) (fun a => by
    match a with
    | ⟨0, _⟩ => show j.val = if (32 : ℕ) = 1 then 0 else j.val; rw [if_neg (by decide)]
    | ⟨1, _⟩ => show h.val = if (6 : ℕ) = 1 then 0 else h.val; rw [if_neg (by decide)]
    | ⟨2, _⟩ => show n.val = if (49 : ℕ) = 1 then 0 else n.val; rw [if_neg (by decide)]
    | ⟨3, _⟩ => show (0 : ℕ) = if (1 : ℕ) = 1 then 0 else d.val; rw [if_pos rfl])

/-- The six scales laid over a block of scores: [6] → [1, 6, 1, 1] → [32, 6, 49, 49] reads the scale of the head. -/
theorem scale_over_scores (x : (⟨1, ![6]⟩ : Shape).Idx → α) (hc : (⟨1, ![6]⟩ : Shape).ShapeCasts ⟨4, ![1, 6, 1, 1]⟩)
    (hb : (⟨4, ![1, 6, 1, 1]⟩ : Shape).Broadcasts ⟨4, ![32, 6, 49, 49]⟩) (j : Fin 32) (h : Fin 6) (n m : Fin 49) :
    broadcastTo ⟨4, ![32, 6, 49, 49]⟩ (shapeCast ⟨4, ![1, 6, 1, 1]⟩ x hc) hb (ix4 j h n m) = x (ix1 h) :=
  (broadcastTo_apply _ hb (ix4 j h n m) (ix4 (0 : Fin 1) h (0 : Fin 1) (0 : Fin 1)) (fun a => by
    match a with
    | ⟨0, _⟩ => show (0 : ℕ) = if (1 : ℕ) = 1 then 0 else j.val; rw [if_pos rfl]
    | ⟨1, _⟩ => show h.val = if (6 : ℕ) = 1 then 0 else h.val; rw [if_neg (by decide)]
    | ⟨2, _⟩ => show (0 : ℕ) = if (1 : ℕ) = 1 then 0 else n.val; rw [if_pos rfl]
    | ⟨3, _⟩ => show (0 : ℕ) = if (1 : ℕ) = 1 then 0 else m.val; rw [if_pos rfl])).trans
  (shapeCast_apply x hc (ix4 (0 : Fin 1) h (0 : Fin 1) (0 : Fin 1)) (ix1 h) (by
    rw [Shape.rowMajor_val_one, Shape.rowMajor_val_four]
    show h.val = ((0 * 6 + h.val) * 1 + 0) * 1 + 0
    omega))

/-- The positional term laid over the 32 windows: [6, 49, 49] → [1, 6, 49, 49] → [32, 6, 49, 49]. -/
theorem bias_over_windows (x : (⟨3, ![6, 49, 49]⟩ : Shape).Idx → α)
    (hc : (⟨3, ![6, 49, 49]⟩ : Shape).ShapeCasts ⟨4, ![1, 6, 49, 49]⟩)
    (hb : (⟨4, ![1, 6, 49, 49]⟩ : Shape).Broadcasts ⟨4, ![32, 6, 49, 49]⟩) (j : Fin 32) (h : Fin 6) (n m : Fin 49) :
    broadcastTo ⟨4, ![32, 6, 49, 49]⟩ (shapeCast ⟨4, ![1, 6, 49, 49]⟩ x hc) hb (ix4 j h n m) = x (ix3 h n m) :=
  (broadcastTo_apply _ hb (ix4 j h n m) (ix4 (0 : Fin 1) h n m) (fun a => by
    match a with
    | ⟨0, _⟩ => show (0 : ℕ) = if (1 : ℕ) = 1 then 0 else j.val; rw [if_pos rfl]
    | ⟨1, _⟩ => show h.val = if (6 : ℕ) = 1 then 0 else h.val; rw [if_neg (by decide)]
    | ⟨2, _⟩ => show n.val = if (49 : ℕ) = 1 then 0 else n.val; rw [if_neg (by decide)]
    | ⟨3, _⟩ => show m.val = if (49 : ℕ) = 1 then 0 else m.val; rw [if_neg (by decide)])).trans
  (shapeCast_apply x hc (ix4 (0 : Fin 1) h n m) (ix3 h n m) (by
    rw [Shape.rowMajor_val_three, Shape.rowMajor_val_four]
    show (h.val * 49 + n.val) * 49 + m.val = ((0 * 6 + h.val) * 49 + n.val) * 49 + m.val
    omega))

/-- The 32 masks laid over the six heads: [32, 49, 49] → [32, 1, 49, 49] → [32, 6, 49, 49]. -/
theorem mask_over_heads (x : (⟨3, ![32, 49, 49]⟩ : Shape).Idx → α)
    (hc : (⟨3, ![32, 49, 49]⟩ : Shape).ShapeCasts ⟨4, ![32, 1, 49, 49]⟩)
    (hb : (⟨4, ![32, 1, 49, 49]⟩ : Shape).Broadcasts ⟨4, ![32, 6, 49, 49]⟩) (j : Fin 32) (h : Fin 6) (n m : Fin 49) :
    broadcastTo ⟨4, ![32, 6, 49, 49]⟩ (shapeCast ⟨4, ![32, 1, 49, 49]⟩ x hc) hb (ix4 j h n m) = x (ix3 j n m) :=
  (broadcastTo_apply _ hb (ix4 j h n m) (ix4 j (0 : Fin 1) n m) (fun a => by
    match a with
    | ⟨0, _⟩ => show j.val = if (32 : ℕ) = 1 then 0 else j.val; rw [if_neg (by decide)]
    | ⟨1, _⟩ => show (0 : ℕ) = if (1 : ℕ) = 1 then 0 else h.val; rw [if_pos rfl]
    | ⟨2, _⟩ => show n.val = if (49 : ℕ) = 1 then 0 else n.val; rw [if_neg (by decide)]
    | ⟨3, _⟩ => show m.val = if (49 : ℕ) = 1 then 0 else m.val; rw [if_neg (by decide)])).trans
  (shapeCast_apply x hc (ix4 j (0 : Fin 1) n m) (ix3 j n m) (by
    rw [Shape.rowMajor_val_three, Shape.rowMajor_val_four]
    show (j.val * 49 + n.val) * 49 + m.val = ((j.val * 1 + 0) * 49 + n.val) * 49 + m.val
    omega))

/-- A sum over the last axis of a [32, 6, 49, L] array of extended reals, from the zero word, at (j, h, n). -/
theorem lane_sum {L : ℕ} (v : FVec Ideal ⟨4, ![32, 6, 49, L]⟩ .f32)
    (hr : (⟨4, ![32, 6, 49, L]⟩ : Shape).Reduces [3] ⟨3, ![32, 6, 49]⟩) (hφ : FKind.Formats .f32)
    (hacc : (0x00000000#32 : BitVec 32) = FKind.add.neutral .f32 hφ) (j : Fin 32) (h : Fin 6) (n : Fin 49) :
    multiReduction (F := Ideal) .add [3] ⟨3, ![32, 6, 49]⟩ v 0x00000000#32 hr hφ hacc (ix3 j h n)
      = ∑ d : Fin L, v (ix4 j h n d) :=
  (Ideal.multiReduction_add_single v _ hr hφ hacc (ix3 j h n)).trans
    (Finset.sum_congr rfl fun d _ => congrArg v (funext fun a => Fin.ext (by
      match a with
      | ⟨0, _⟩ => rfl
      | ⟨1, _⟩ => rfl
      | ⟨2, _⟩ => rfl
      | ⟨3, _⟩ => rfl)))

/-- A maximum over the last axis of a [32, 6, 49, 49] array of extended reals, from the word of −∞, at (j, h, n). -/
theorem lane_max (v : FVec Ideal ⟨4, ![32, 6, 49, 49]⟩ .f32)
    (hr : (⟨4, ![32, 6, 49, 49]⟩ : Shape).Reduces [3] ⟨3, ![32, 6, 49]⟩) (hφ : FKind.Formats .f32)
    (hacc : (0xFF800000#32 : BitVec 32) = FKind.maximumf.neutral .f32 hφ) (j : Fin 32) (h : Fin 6) (n : Fin 49) :
    multiReduction (F := Ideal) .maximumf [3] ⟨3, ![32, 6, 49]⟩ v 0xFF800000#32 hr hφ hacc (ix3 j h n)
      = (Finset.univ : Finset (Fin 49)).fold max negInf (fun m => v (ix4 j h n m)) :=
  (Ideal.multiReduction_maximumf_single v _ hr hφ hacc (ix3 j h n)).trans
    (congrArg (fun f => Finset.fold max negInf f (Finset.univ : Finset (Fin 49))) (funext fun m => congrArg v (funext fun a => Fin.ext (by
      match a with
      | ⟨0, _⟩ => rfl
      | ⟨1, _⟩ => rfl
      | ⟨2, _⟩ => rfl
      | ⟨3, _⟩ => rfl))))

end Cert.WindowAttn.Layout

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«103782_j27470610825456_2_alg».proof.Proof.LibMatmulRows
import proofs.«103782_j27470610825456_2_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibContractAt.lean ====
/-
  GENERAL LEMMAS: a contraction over ONE axis, read at an output index, as a plain sum over that axis' coordinate,
  whatever the arrangement of the two operands (which axis of each is contracted, whether an operand enters transposed).

  The dimension record of a matrix product names, for an output index j and a contraction index s, one index of each
  operand. When the contraction has a single axis of extent K, the contraction indices are the numbers below K, and the
  product at j is the sum over k : Fin K of l (li k) * r (ri k), where li k and ri k are the two operand indices that the
  record names at j and k. The caller says what li and ri are (two equations per use, usually closed coordinate by
  coordinate); nothing here depends on the shapes.

  * contraction_at: the re-indexing of the sum.
  * matmul_at: the matrix unit's product into a zero accumulator, at j.
  * hostdot_at: the host's dot_general, at j.
  * contr_val: the number a contraction index stands for is its one coordinate.
  Only a change of summation index is used: no law of extended-real arithmetic, so no finiteness.
-/
import Idealize.ShloMosaic.PureOps.Ideal
import Idealize.ShloMosaic.PureOps.Ideal.Laws
import Idealize.ShloMosaic.Lib.ValueIdx

noncomputable section

namespace Cert.LibContractAt

open Idealize.ShloMosaic Idealize.ShloMosaic.ValueIdx
open scoped BigOperators

/-- The number a one-axis contraction index stands for is its one coordinate. -/
theorem contr_val {sl sr so : Shape} (d : DotDims sl sr so) (K : ℕ) (hrank : d.contr.rank = 1)
    (hsize : d.contr.size ⟨0, by omega⟩ = K) (s : d.contr.Idx) :
    ((contrEquiv1 d K hrank hsize s : Fin K) : ℕ) = (s ⟨0, by omega⟩).val := rfl

/-- A one-axis contraction at the output index j is the sum over k of l (li k) * r (ri k), where li and ri are the operand
    indices the record names at j. -/
theorem contraction_at {sl sr so : Shape} (d : DotDims sl sr so) (K : ℕ) (hrank : d.contr.rank = 1)
    (hsize : d.contr.size ⟨0, by omega⟩ = K) (l : sl.Idx → EReal) (r : sr.Idx → EReal) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    ∑ s : d.contr.Idx, l (d.lhsIdx j s) * r (d.rhsIdx j s) = ∑ k : Fin K, l (li k) * r (ri k) := by
  rw [← Equiv.sum_comp (contrEquiv1 d K hrank hsize)]
  exact Finset.sum_congr rfl fun s _ => by rw [hl s, hr s]

/-- The matrix unit's product into a zero accumulator, at j. -/
theorem matmul_at {sl sr so : Shape} (d : DotDims sl sr so) (K : ℕ) (hrank : d.contr.rank = 1)
    (hsize : d.contr.size ⟨0, by omega⟩ = K) {φ₁ φ₂ : FTy} (l : FVec Ideal sl φ₁) (r : FVec Ideal sr φ₂) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    matmul d none l r (constant (F := Ideal) so .f32 0x00000000#32) j = ∑ k : Fin K, l (li k) * r (ri k) :=
  (Ideal.matmul_constant_zero_apply d none l r j).trans (contraction_at d K hrank hsize l r j li ri hl hr)

/-- The host's dot_general, at j. -/
theorem hostdot_at {sl sr so : Shape} (d : DotDims sl sr so) (K : ℕ) (hrank : d.contr.rank = 1)
    (hsize : d.contr.size ⟨0, by omega⟩ = K) (l : FVec Ideal sl .f32) (r : FVec Ideal sr .f32) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    Host.dotGeneral d none l r j = ∑ k : Fin K, l (li k) * r (ri k) :=
  (Ideal.dotGeneral_apply d none .single l r j).trans (contraction_at d K hrank hsize l r j li ri hl hr)

end Cert.LibContractAt

end
-- ==== Proof.KernelBody.lean ====
/-
  The arithmetic of the window-attention body, read entry by entry.

  The body holds a block of 32 windows. Reading its one stored value at (window j, token n, channel o) and pushing the index
  inwards through every operation gives, in order: the output layer as a sum over the 192 channels c of the mixed values;
  the mixed value of channel c as the weighted sum over the key tokens of head c / 32, lane c % 32; the weights as the
  exponentials of the scores minus the row's largest score over their sum; the scores as the cosine of the query and key
  vectors times the head's scale plus the positional term plus the mask; the query, key and value vectors as the three input
  layers of the window's rows. A change of float format is the identity on extended reals, a product into a zero
  accumulator is the plain sum of products, and every cast, transpose and broadcast is a renumbering.
-/
import proofs.«103782_j27470610825456_2_alg».proof.Proof.Gen.KernelIdeal.Frame
import proofs.«103782_j27470610825456_2_alg».proof.Proof.KernelOutStmt
import proofs.«103782_j27470610825456_2_alg».proof.Proof.KernelLayout
import proofs.«103782_j27470610825456_2_alg».proof.Proof.LibDenseLayers
import proofs.«103782_j27470610825456_2_alg».proof.Proof.LibContractAt

noncomputable section

namespace Cert.KernelIdeal.BlockValue

open Cert.KernelIdeal Cert.KernelIdeal.Gen Idealize.ShloMosaic Idealize.ShloMosaic.ValueIdx Cert.WindowAttn Cert.WindowAttn.Layout
open scoped BigOperators

/-! ## The three contraction records: which operand entry meets which -/

/-- Rows against columns: [1568, 192] × [192, 192]. -/
abbrev DRows : DotDims S1568x192 S192x192 S1568x192 := dot_S1568x192_S192x192_S1568x192_1_0_0_1_n_n
/-- Per (window, head) pair, query tokens against key tokens over the 32 lanes. -/
abbrev DScores : DotDims S192x49x32 S192x49x32 S192x49x49 := dot_S192x49x32_S192x49x32_S192x49x49_2_2_1_1_0_0
/-- Per (window, head) pair, weights against value vectors over the 49 key tokens. -/
abbrev DMix : DotDims S192x49x49 S192x49x32 S192x49x32 := dot_S192x49x49_S192x49x32_S192x49x32_2_1_1_2_0_0

theorem rows_l0 (i : S1568x192.Idx) (s : DRows.contr.Idx) : (DRows.lhsIdx i s 0).val = (i 0).val := by
  unfold DotDims.lhsIdx
  rw [dif_neg (show ¬(0 : Fin S1568x192.rank) ∈ DRows.lhsBatch by decide), dif_pos (show (0 : Fin S1568x192.rank) ∈ DRows.lhsNonContracting by decide)]
  rfl
theorem rows_l1 (i : S1568x192.Idx) (s : DRows.contr.Idx) : (DRows.lhsIdx i s 1).val = (s ⟨0, by decide⟩).val :=
  DRows.lhsIdx_val_of_single rfl i s
theorem rows_r0 (i : S1568x192.Idx) (s : DRows.contr.Idx) : (DRows.rhsIdx i s 0).val = (s ⟨0, by decide⟩).val :=
  DRows.rhsIdx_val_of_single rfl i s
theorem rows_r1 (i : S1568x192.Idx) (s : DRows.contr.Idx) : (DRows.rhsIdx i s 1).val = (i 1).val := by
  unfold DotDims.rhsIdx
  rw [dif_neg (show ¬(1 : Fin S192x192.rank) ∈ DRows.rhsBatch by decide), dif_pos (show (1 : Fin S192x192.rank) ∈ DRows.rhsNonContracting by decide)]
  rfl

theorem scores_l0 (i : S192x49x49.Idx) (s : DScores.contr.Idx) : (DScores.lhsIdx i s 0).val = (i 0).val := by
  unfold DotDims.lhsIdx
  rw [dif_pos (show (0 : Fin S192x49x32.rank) ∈ DScores.lhsBatch by decide)]
  rfl
theorem scores_l1 (i : S192x49x49.Idx) (s : DScores.contr.Idx) : (DScores.lhsIdx i s 1).val = (i 1).val := by
  unfold DotDims.lhsIdx
  rw [dif_neg (show ¬(1 : Fin S192x49x32.rank) ∈ DScores.lhsBatch by decide), dif_pos (show (1 : Fin S192x49x32.rank) ∈ DScores.lhsNonContracting by decide)]
  rfl
theorem scores_l2 (i : S192x49x49.Idx) (s : DScores.contr.Idx) : (DScores.lhsIdx i s 2).val = (s ⟨0, by decide⟩).val :=
  DScores.lhsIdx_val_of_single rfl i s
theorem scores_r0 (i : S192x49x49.Idx) (s : DScores.contr.Idx) : (DScores.rhsIdx i s 0).val = (i 0).val := by
  unfold DotDims.rhsIdx
  rw [dif_pos (show (0 : Fin S192x49x32.rank) ∈ DScores.rhsBatch by decide)]
  rfl
theorem scores_r1 (i : S192x49x49.Idx) (s : DScores.contr.Idx) : (DScores.rhsIdx i s 1).val = (i 2).val := by
  unfold DotDims.rhsIdx
  rw [dif_neg (show ¬(1 : Fin S192x49x32.rank) ∈ DScores.rhsBatch by decide), dif_pos (show (1 : Fin S192x49x32.rank) ∈ DScores.rhsNonContracting by decide)]
  rfl
theorem scores_r2 (i : S192x49x49.Idx) (s : DScores.contr.Idx) : (DScores.rhsIdx i s 2).val = (s ⟨0, by decide⟩).val :=
  DScores.rhsIdx_val_of_single rfl i s

theorem mix_l0 (i : S192x49x32.Idx) (s : DMix.contr.Idx) : (DMix.lhsIdx i s 0).val = (i 0).val := by
  unfold DotDims.lhsIdx
  rw [dif_pos (show (0 : Fin S192x49x49.rank) ∈ DMix.lhsBatch by decide)]
  rfl
theorem mix_l1 (i : S192x49x32.Idx) (s : DMix.contr.Idx) : (DMix.lhsIdx i s 1).val = (i 1).val := by
  unfold DotDims.lhsIdx
  rw [dif_neg (show ¬(1 : Fin S192x49x49.rank) ∈ DMix.lhsBatch by decide), dif_pos (show (1 : Fin S192x49x49.rank) ∈ DMix.lhsNonContracting by decide)]
  rfl
theorem mix_l2 (i : S192x49x32.Idx) (s : DMix.contr.Idx) : (DMix.lhsIdx i s 2).val = (s ⟨0, by decide⟩).val :=
  DMix.lhsIdx_val_of_single rfl i s
theorem mix_r0 (i : S192x49x32.Idx) (s : DMix.contr.Idx) : (DMix.rhsIdx i s 0).val = (i 0).val := by
  unfold DotDims.rhsIdx
  rw [dif_pos (show (0 : Fin S192x49x32.rank) ∈ DMix.rhsBatch by decide)]
  rfl
theorem mix_r1 (i : S192x49x32.Idx) (s : DMix.contr.Idx) : (DMix.rhsIdx i s 1).val = (s ⟨0, by decide⟩).val :=
  DMix.rhsIdx_val_of_single rfl i s
theorem mix_r2 (i : S192x49x32.Idx) (s : DMix.contr.Idx) : (DMix.rhsIdx i s 2).val = (i 2).val := by
  unfold DotDims.rhsIdx
  rw [dif_neg (show ¬(2 : Fin S192x49x32.rank) ∈ DMix.rhsBatch by decide), dif_pos (show (2 : Fin S192x49x32.rank) ∈ DMix.rhsNonContracting by decide)]
  rfl

/-- The scores' products: entry (g, n, m) is the sum over the lanes of query (g, n) times key (g, m). -/
theorem scores_contract (l r : FVec Ideal S192x49x32 .f32) (g : Fin 192) (n m : Fin 49) :
    matmul DScores (some .fp32) l r (constant (F := Ideal) S192x49x49 .f32 0x00000000#32) (ix3 g n m)
      = ∑ d : Fin 32, l (ix3 g n d) * r (ix3 g m d) :=
  (Ideal.matmul_constant_zero_apply DScores (some .fp32) l r (ix3 g n m)).trans
    (Cert.LibContractAt.contraction_at DScores 32 rfl rfl l r (ix3 g n m) (fun d => ix3 g n d) (fun d => ix3 g m d)
      (fun s => funext fun a => Fin.ext (by
        match a with
        | ⟨0, _⟩ => exact scores_l0 _ _
        | ⟨1, _⟩ => exact scores_l1 _ _
        | ⟨2, _⟩ => exact scores_l2 _ _))
      (fun s => funext fun a => Fin.ext (by
        match a with
        | ⟨0, _⟩ => exact scores_r0 _ _
        | ⟨1, _⟩ => exact scores_r1 _ _
        | ⟨2, _⟩ => exact scores_r2 _ _)))

/-- The mixing products: entry (g, n, d) is the sum over the key tokens of weight (g, n, m) times value (g, m, d). -/
theorem mix_contract (l : FVec Ideal S192x49x49 .bf16) (r : FVec Ideal S192x49x32 .bf16) (g : Fin 192) (n : Fin 49) (d : Fin 32) :
    matmul DMix none l r (constant (F := Ideal) S192x49x32 .f32 0x00000000#32) (ix3 g n d)
      = ∑ m : Fin 49, l (ix3 g n m) * r (ix3 g m d) :=
  Cert.LibContractAt.matmul_at DMix 49 rfl rfl l r (ix3 g n d) (fun m => ix3 g n m) (fun m => ix3 g m d)
    (fun s => funext fun a => Fin.ext (by
      match a with
      | ⟨0, _⟩ => exact mix_l0 _ _
      | ⟨1, _⟩ => exact mix_l1 _ _
      | ⟨2, _⟩ => exact mix_l2 _ _))
    (fun s => funext fun a => Fin.ext (by
      match a with
      | ⟨0, _⟩ => exact mix_r0 _ _
      | ⟨1, _⟩ => exact mix_r1 _ _
      | ⟨2, _⟩ => exact mix_r2 _ _))

/-! ## The input layers and the lengths -/

/-- The block's rows: row j · 49 + n, channel c of the block read as 1568 rows is the block at (j, n, c). -/
theorem rows_apply (v0 : FVec Ideal S32x49x192 .f32) (j : Fin 32) (n : Fin 49) (c : Fin 192) :
    k0_pay2 (F := Ideal) v0 (ix2 (row j n) c) = v0 (ix3 j n c) :=
  rows_of_block v0 _ j n c

/-- An input layer read at (window j, head h, token n, lane d): row (j, n) of the block against column h · 32 + d of the
    weights, plus the bias there. -/
theorem in_layer_apply (v0 : FVec Ideal S32x49x192 .f32) (v3 : FVec Ideal S192x192 .f32) (v13 : FVec Ideal S192 .f32)
    (j : Fin 32) (h : Fin 6) (n : Fin 49) (d : Fin 32) :
    k0_pay3 (F := Ideal) v0 v3 v13 (ix4 j h n d)
      = lin (fun c => v0 (ix3 j n c)) (fun c o => v3 (ix2 c o)) (fun o => v13 (ix1 o)) (chan h d) := by
  unfold k0_pay3
  refine (heads_first _ _ j h n d).trans ?_
  refine (heads_of_channels _ _ j n h d).trans ?_
  refine (block_of_rows _ _ j n (chan h d)).trans ?_
  refine (congrFun (Cert.LibDenseLayers.affine_of_matmul DRows rfl rfl rows_l0 rows_l1 rows_r0 rows_r1 _ _ _ _ _) (ix2 (row j n) (chan h d))).trans ?_
  unfold Cert.LibDenseLayers.affine Cert.LibDenseLayers.affineAt lin
  exact congrArg₂ (· + ·)
    (Finset.sum_congr rfl fun k _ => congrArg₂ (· * ·) (rows_apply v0 j n k) (congrFun (shapeCast_self v3 _) (ix2 k (chan h d))))
    (congrFun (shapeCast_self v13 _) (ix1 (chan h d)))

/-- The second and third input layers are the first one's operations on other weights. -/
theorem key_layer_eq (v0 : FVec Ideal S32x49x192 .f32) (v6 : FVec Ideal S192x192 .f32) (v19 : FVec Ideal S192 .f32) :
    k0_pay4 (F := Ideal) v0 v6 v19 = k0_pay3 (F := Ideal) v0 v6 v19 := rfl
theorem value_layer_eq (v0 : FVec Ideal S32x49x192 .f32) (v9 : FVec Ideal S192x192 .f32) (v25 : FVec Ideal S192 .f32) :
    k0_pay5 (F := Ideal) v0 v9 v25 = k0_pay3 (F := Ideal) v0 v9 v25 := rfl

/-- The Euclidean length of the 32 lanes at (j, h, n), kept on a last axis of extent one. -/
theorem length_apply (v : FVec Ideal S32x6x49x32 .f32) (hr : S32x6x49x32.Reduces [3] S32x6x49) (hφ : FKind.Formats .f32)
    (hacc : (0x00000000#32 : BitVec 32) = FKind.add.neutral .f32 hφ) (hc : S32x6x49.ShapeCasts S32x6x49x1)
    (j : Fin 32) (h : Fin 6) (n : Fin 49) :
    sqrt (shapeCast S32x6x49x1 (multiReduction (F := Ideal) .add [3] S32x6x49 (mulf v v) 0x00000000#32 hr hφ hacc) hc) (ix4 j h n (0 : Fin 1))
      = Ideal.sqrt (∑ d : Fin 32, v (ix4 j h n d) * v (ix4 j h n d)) :=
  congrArg Ideal.sqrt ((keep_lane _ hc j h n).trans (lane_sum (mulf v v) hr hφ hacc j h n))

/-- The queries' lengths. -/
theorem q_length_apply (v0 : FVec Ideal S32x49x192 .f32) (v3 : FVec Ideal S192x192 .f32) (v13 : FVec Ideal S192 .f32)
    (j : Fin 32) (h : Fin 6) (n : Fin 49) :
    k0_pay6 (F := Ideal) v0 v3 v13 (ix4 j h n (0 : Fin 1))
      = Ideal.sqrt (∑ d : Fin 32, k0_pay3 (F := Ideal) v0 v3 v13 (ix4 j h n d) * k0_pay3 (F := Ideal) v0 v3 v13 (ix4 j h n d)) := by
  unfold k0_pay6
  exact length_apply (k0_pay3 (F := Ideal) v0 v3 v13) _ _ _ _ j h n

/-! ## Unit vectors, scores, weights -/

/-- A vector divided by its clamped length, read at (j, h, n, d). -/
theorem unit_apply (v : FVec Ideal S32x6x49x32 .f32) (len1 : FVec Ideal S32x6x49x1 .f32) (hb : S32x6x49x1.Broadcasts S32x6x49x32)
    (j : Fin 32) (h : Fin 6) (n : Fin 49) (d : Fin 32) :
    divf v (broadcastTo S32x6x49x32 (maximumf len1 (broadcast S32x6x49x1 (Scalar.ofBits (F := Ideal) .f32 0x2B8CBCCC#32))) hb) (ix4 j h n d)
      = Ideal.div (v (ix4 j h n d)) (max (len1 (ix4 j h n (0 : Fin 1))) eps) :=
  congrArg (Ideal.div (v (ix4 j h n d))) (along_lanes (by decide) _ hb j h n d)

/-- The weights of a block of scores L: at (j, h, n, m) the exponential of the score minus the row's largest, over the
    row's sum of those. -/
theorem soft_apply (L : FVec Ideal S32x6x49x49 .f32) (hr : S32x6x49x49.Reduces [3] S32x6x49) (hφ : FKind.Formats .f32)
    (haccM : (0xFF800000#32 : BitVec 32) = FKind.maximumf.neutral .f32 hφ)
    (haccA : (0x00000000#32 : BitVec 32) = FKind.add.neutral .f32 hφ)
    (hc : S32x6x49.ShapeCasts S32x6x49x1) (hb : S32x6x49x1.Broadcasts S32x6x49x49)
    (j : Fin 32) (h : Fin 6) (n m : Fin 49) :
    divf
      (exp (subf L (broadcastTo S32x6x49x49 (shapeCast S32x6x49x1 (maximumf (broadcast S32x6x49 (Scalar.ofBits (F := Ideal) .f32 0xFF800000#32))
        (multiReduction (F := Ideal) .maximumf [3] S32x6x49 L 0xFF800000#32 hr hφ haccM)) hc) hb)))
      (broadcastTo S32x6x49x49 (shapeCast S32x6x49x1 (multiReduction (F := Ideal) .add [3] S32x6x49
        (exp (subf L (broadcastTo S32x6x49x49 (shapeCast S32x6x49x1 (maximumf (broadcast S32x6x49 (Scalar.ofBits (F := Ideal) .f32 0xFF800000#32))
          (multiReduction (F := Ideal) .maximumf [3] S32x6x49 L 0xFF800000#32 hr hφ haccM)) hc) hb)))
        0x00000000#32 hr hφ haccA) hc) hb) (ix4 j h n m)
      = soft negInf (fun m' => L (ix4 j h n m')) m := by
  have htop : ∀ m' : Fin 49,
      broadcastTo S32x6x49x49 (shapeCast S32x6x49x1 (maximumf (broadcast S32x6x49 (Scalar.ofBits (F := Ideal) .f32 0xFF800000#32))
        (multiReduction (F := Ideal) .maximumf [3] S32x6x49 L 0xFF800000#32 hr hφ haccM)) hc) hb (ix4 j h n m')
        = rowTop negInf (fun m'' => L (ix4 j h n m'')) := fun m' =>
    (along_lanes (by decide) _ hb j h n m').trans ((keep_lane _ hc j h n).trans
      (congrArg (max negInf) (lane_max L hr hφ haccM j h n)))
  have he : ∀ m' : Fin 49,
      exp (subf L (broadcastTo S32x6x49x49 (shapeCast S32x6x49x1 (maximumf (broadcast S32x6x49 (Scalar.ofBits (F := Ideal) .f32 0xFF800000#32))
        (multiReduction (F := Ideal) .maximumf [3] S32x6x49 L 0xFF800000#32 hr hφ haccM)) hc) hb)) (ix4 j h n m')
        = Ideal.exp (L (ix4 j h n m') - rowTop negInf (fun m'' => L (ix4 j h n m''))) := fun m' =>
    congrArg (fun t => Ideal.exp (L (ix4 j h n m') - t)) (htop m')
  unfold soft
  exact congrArg₂ Ideal.div (he m)
    ((along_lanes (by decide) _ hb j h n m).trans ((keep_lane _ hc j h n).trans
      ((lane_sum _ hr hφ haccA j h n).trans (Finset.sum_congr rfl fun m' _ => he m'))))

/-- The weights the body computes, at pair (j, h), query token n, key token m, from query vectors Yq, key vectors Yk (read
    through the head's lanes) and the queries' lengths: the weights of the row of scores. -/
theorem weights_apply (v32 v35 : FVec Ideal S32x6x49x32 .f32) (v42 : FVec Ideal S32x6x49x1 .f32) (v59 : FVec Ideal S6 .f32)
    (v62 : FVec Ideal S6x49x49 .f32) (v65 : FVec Ideal S32x49x49 .f32) (Yq Yk : Fin 49 → Fin 192 → EReal) (j : Fin 32) (h : Fin 6)
    (hq : ∀ (n : Fin 49) (d : Fin 32), v32 (ix4 j h n d) = Yq n (chan h d))
    (hk : ∀ (n : Fin 49) (d : Fin 32), v35 (ix4 j h n d) = Yk n (chan h d))
    (hl : ∀ n : Fin 49, v42 (ix4 j h n (0 : Fin 1)) = Ideal.sqrt (∑ d : Fin 32, Yq n (chan h d) * Yq n (chan h d)))
    (n m : Fin 49) :
    k0_pay7 (F := Ideal) v32 v35 v42 v59 v62 v65 (ix3 (pair j h) n m)
      = soft negInf (score eps Yq Yk (fun h' => v59 (ix1 h')) (fun h' n' m' => v62 (ix3 h' n' m')) (fun n' m' => v65 (ix3 j n' m')) h n) m := by
  unfold k0_pay7
  refine (truncf_apply (φ := FTy.f32) (ψ := FTy.bf16) _ bitsLt_bf16_f32 _).trans ?_
  refine (pairs_of_heads _ _ j h n m).trans ?_
  refine (soft_apply _ _ _ _ _ _ _ j h n m).trans ?_
  refine congrArg (fun L => soft negInf L m) (funext fun m' => ?_)
  unfold score cosine len
  refine congrArg₂ (· + ·) (congrArg₂ (· + ·) (congrArg₂ (· * ·) ?_
      ((scale_over_scores _ _ _ j h n m').trans (congrFun (shapeCast_self v59 _) (ix1 h))))
      ((bias_over_windows _ _ _ j h n m').trans (congrFun (shapeCast_self v62 _) (ix3 h n m'))))
    (mask_over_heads _ _ _ j h n m')
  refine (heads_of_pairs _ _ j h n m').trans ?_
  refine (scores_contract _ _ (pair j h) n m').trans ?_
  refine Finset.sum_congr rfl fun d _ => congrArg₂ (· * ·) ?_ ?_
  · refine (pairs_of_heads _ _ j h n d).trans ((unit_apply v32 v42 _ j h n d).trans ?_)
    rw [hq n d, hl n]
  · refine (pairs_of_heads _ _ j h m' d).trans ((unit_apply v35 _ _ j h m' d).trans ?_)
    exact congrArg₂ Ideal.div (hk m' d) (congrArg (fun t => max t eps)
      ((length_apply v35 _ _ _ _ j h m').trans (congrArg Ideal.sqrt (Finset.sum_congr rfl fun d' _ => by rw [hk m' d']))))

/-- The values as the mixing step reads them: pair (j, h), key token m, lane d. -/
theorem values_apply (v38 : FVec Ideal S32x6x49x32 .f32) (j : Fin 32) (h : Fin 6) (m : Fin 49) (d : Fin 32) :
    k0_pay8 (F := Ideal) v38 (ix3 (pair j h) m d) = v38 (ix4 j h m d) :=
  pairs_of_heads v38 _ j h m d

/-! ## The output layer and the whole block -/

/-- The stored value at (j, n, o): the output layer of the mixed values, channel c mixing head c / 32 at lane c % 32. -/
theorem out_layer_apply (v85 : FVec Ideal S192x49x49 .bf16) (v87 : FVec Ideal S192x49x32 .bf16) (v92 : FVec Ideal S192x192 .f32)
    (v97 : FVec Ideal S192 .f32) (j : Fin 32) (n : Fin 49) (o : Fin 192) :
    k0_pay1 (F := Ideal) v85 v87 (constant (F := Ideal) S192x49x32 .f32 0x00000000#32) v92 v97 (ix3 j n o)
      = lin (fun c => ∑ m : Fin 49, v85 (ix3 (pair j (headOf c)) n m) * v87 (ix3 (pair j (headOf c)) m (laneOf c)))
          (fun c o' => v92 (ix2 c o')) (fun o' => v97 (ix1 o')) o := by
  unfold k0_pay1
  refine (block_of_rows _ _ j n o).trans ?_
  refine (congrFun (Cert.LibDenseLayers.affine_of_matmul DRows rfl rfl rows_l0 rows_l1 rows_r0 rows_r1 _ _ _ _ _) (ix2 (row j n) o)).trans ?_
  unfold Cert.LibDenseLayers.affine Cert.LibDenseLayers.affineAt lin
  refine congrArg₂ (· + ·) (Finset.sum_congr rfl fun c _ => congrArg₂ (· * ·) ?_ (congrFun (shapeCast_self v92 _) (ix2 c o))) rfl
  refine (truncf_apply (φ := FTy.f32) (ψ := FTy.bf16) _ bitsLt_bf16_f32 _).trans ?_
  refine (channels_of_heads _ _ j n c).trans ?_
  refine (tokens_first _ _ j n (headOf c) (laneOf c)).trans ?_
  refine (heads_of_pairs _ _ j (headOf c) n (laneOf c)).trans ?_
  exact mix_contract v85 v87 (pair j (headOf c)) n (laneOf c)

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's one store, read at (j, n, o), is the window function of the blocks it loaded. -/
theorem out_at : OutAt := by
  intro x0 x1 x2 x3 x4 x5 x6 x7 x8 x9 x10 x11 j n o
  unfold out0_12
  rw [View.canon_unit_zero zeros3]
  simp only [View.ld_unit_zero (S := S32x49x192) zeros3, View.ld_unit_zero (S := S192x192) zeros2,
    View.ld_unit_zero (S := S192) zeros1, View.ld_unit_zero (S := S6) zeros1, View.ld_unit_zero (S := S6x49x49) zeros3,
    View.ld_unit_zero (S := S32x49x49) zeros3]
  refine (out_layer_apply _ _ x10 x11 j n o).trans ?_
  unfold blockFn window
  refine congrArg (fun f => lin f (fun c o' => x10 (ix2 c o')) (fun o' => x11 (ix1 o')) o) (funext fun c => ?_)
  unfold mix
  refine Finset.sum_congr rfl fun m _ => congrArg₂ (· * ·) ?_ ?_
  · exact weights_apply (k0_pay3 (F := Ideal) x0 x1 x2) (k0_pay4 (F := Ideal) x0 x3 x4) (k0_pay6 (F := Ideal) x0 x1 x2) x7 x8 x9
      (fun n' => lin (fun c' => x0 (ix3 j n' c')) (fun c' o' => x1 (ix2 c' o')) (fun o' => x2 (ix1 o')))
      (fun n' => lin (fun c' => x0 (ix3 j n' c')) (fun c' o' => x3 (ix2 c' o')) (fun o' => x4 (ix1 o')))
      j (headOf c)
      (fun n' d => in_layer_apply x0 x1 x2 j (headOf c) n' d)
      (fun n' d => in_layer_apply x0 x3 x4 j (headOf c) n' d)
      (fun n' => (q_length_apply x0 x1 x2 j (headOf c) n').trans (congrArg Ideal.sqrt (Finset.sum_congr rfl fun d _ => by
        rw [in_layer_apply x0 x1 x2 j (headOf c) n' d])))
      n m
  · exact (values_apply (k0_pay5 (F := Ideal) x0 x5 x6) j (headOf c) m (laneOf c)).trans
      (in_layer_apply x0 x5 x6 j (headOf c) m (laneOf c))

end Cert.KernelIdeal.BlockValue

end
-- ==== Proof.KernelHostArrays.lean ====
/-
  The arrays the kernel's launch reads that are not arguments: what the operations before the launch leave in them, entry
  by entry. Three [192, 192] slices of the transposed stacked input weights, three [192] slices of the stacked input biases,
  the transposed output weights, the six scales exp(min(s, cap)) flattened from [6, 1, 1] to [6], and the positional term
  [6, 49, 49] gathered from the bias table through the index table. The first seven are read against the specification's
  blocks of the stacked layer; the last two are the same operation chains as two stages of the reference program.
-/
import proofs.«103782_j27470610825456_2_alg».proof.Proof.Gen.KernelIdeal.Value
import proofs.«103782_j27470610825456_2_alg».proof.Proof.Spec
import proofs.«103782_j27470610825456_2_alg».proof.Proof.Gen.ReferenceIdeal.Read
import Idealize.ShloMosaic.Lib.Pipeline.Value
import Idealize.ShloMosaic.Lib.ValueLayout
import Idealize.ShloMosaic.Lib.Tactic

noncomputable section

namespace Cert.KernelIdeal.ArrayValue

open Cert.KernelIdeal Cert.KernelIdeal.Gen Idealize.ShloMosaic Idealize.ShloMosaic.TcCoe Idealize.SL.Sem
open Idealize.ShloMosaic.ValueIdx Cert.WindowAttn
open Idealize.ShloMosaic.Pipeline (Dat)

variable (m : (ℓ : Loc nD τ sig) → Buf (Elt Ideal) ℓ) (ρ : Dev nD → PrngReg)

open Idealize.ShloMosaic.StableHlo

/-! ## The arrays the host operations before the launch prepare, read at an index

Each is a short chain of layout operations over one argument: the chain is read off the operations, then read at an index. -/

/-- The three input weight blocks, input-channel first: entry (a, o) of block k is the stacked weights' entry (192·k + o, a)
    (the stack is transposed, then its columns 192·k … 192·k + 191 are cut out). -/
theorem in_weights0 (c : Dev nD) (a o : Fin 192) :
    (V m c main_v15 : S192x192.Idx → EReal) (ix2 a o) = inW 0 (by decide) (m ((c : Thread nD τ).loc main_arg2)) a o := by
  have e : (V m c main_v15 : S192x192.Idx → EReal)
      = extractStridedSlice S192x192 ![0, 0] (transpose S192x576 [1, 0] ((m ((c : Thread nD τ).loc main_arg2)) : S576x192.Idx → EReal)
          transposes_S576x192_S192x576_1_0) slices_S192x576_S192x192_0_0 := by
    dsimp only [Gen.V, Gen.hostOps0]; after_results <;> rfl
  rw [e]
  refine (slice2_axis1_apply 0 _ slices_S192x576_S192x192_0_0 a o ⟨0 * 192 + o.val, by have := o.isLt; omega⟩
    (by show 0 * 192 + o.val = 0 + o.val; omega)).trans ?_
  exact transpose_ix2_apply _ _ a _

theorem in_weights1 (c : Dev nD) (a o : Fin 192) :
    (V m c main_v16 : S192x192.Idx → EReal) (ix2 a o) = inW 1 (by decide) (m ((c : Thread nD τ).loc main_arg2)) a o := by
  have e : (V m c main_v16 : S192x192.Idx → EReal)
      = extractStridedSlice S192x192 ![0, 192] (transpose S192x576 [1, 0] ((m ((c : Thread nD τ).loc main_arg2)) : S576x192.Idx → EReal)
          transposes_S576x192_S192x576_1_0) slices_S192x576_S192x192_0_192 := by
    dsimp only [Gen.V, Gen.hostOps0]; after_results <;> rfl
  rw [e]
  refine (slice2_axis1_apply 192 _ slices_S192x576_S192x192_0_192 a o ⟨1 * 192 + o.val, by have := o.isLt; omega⟩
    (by show 1 * 192 + o.val = 192 + o.val; omega)).trans ?_
  exact transpose_ix2_apply _ _ a _

theorem in_weights2 (c : Dev nD) (a o : Fin 192) :
    (V m c main_v17 : S192x192.Idx → EReal) (ix2 a o) = inW 2 (by decide) (m ((c : Thread nD τ).loc main_arg2)) a o := by
  have e : (V m c main_v17 : S192x192.Idx → EReal)
      = extractStridedSlice S192x192 ![0, 384] (transpose S192x576 [1, 0] ((m ((c : Thread nD τ).loc main_arg2)) : S576x192.Idx → EReal)
          transposes_S576x192_S192x576_1_0) slices_S192x576_S192x192_0_384 := by
    dsimp only [Gen.V, Gen.hostOps0]; after_results <;> rfl
  rw [e]
  refine (slice2_axis1_apply 384 _ slices_S192x576_S192x192_0_384 a o ⟨2 * 192 + o.val, by have := o.isLt; omega⟩
    (by show 2 * 192 + o.val = 384 + o.val; omega)).trans ?_
  exact transpose_ix2_apply _ _ a _

/-- The three input bias blocks: entry o of block k is the stacked biases' entry 192·k + o. -/
theorem in_bias0 (c : Dev nD) (o : Fin 192) :
    (V m c main_v18 : S192.Idx → EReal) (ix1 o) = inB 0 (by decide) (m ((c : Thread nD τ).loc main_arg3)) o := by
  have e : (V m c main_v18 : S192.Idx → EReal)
      = extractStridedSlice S192 ![0] ((m ((c : Thread nD τ).loc main_arg3)) : S576.Idx → EReal) slices_S576_S192_0 := by
    dsimp only [Gen.V, Gen.hostOps0]; after_results <;> rfl
  rw [e]
  refine extractStridedSlice_apply _ _ _ _ _ fun ax => ?_
  match ax with
  | ⟨0, _⟩ => show 0 * 192 + o.val = 0 + o.val; omega

theorem in_bias1 (c : Dev nD) (o : Fin 192) :
    (V m c main_v19 : S192.Idx → EReal) (ix1 o) = inB 1 (by decide) (m ((c : Thread nD τ).loc main_arg3)) o := by
  have e : (V m c main_v19 : S192.Idx → EReal)
      = extractStridedSlice S192 ![192] ((m ((c : Thread nD τ).loc main_arg3)) : S576.Idx → EReal) slices_S576_S192_192 := by
    dsimp only [Gen.V, Gen.hostOps0]; after_results <;> rfl
  rw [e]
  refine extractStridedSlice_apply _ _ _ _ _ fun ax => ?_
  match ax with
  | ⟨0, _⟩ => show 1 * 192 + o.val = 192 + o.val; omega

theorem in_bias2 (c : Dev nD) (o : Fin 192) :
    (V m c main_v20 : S192.Idx → EReal) (ix1 o) = inB 2 (by decide) (m ((c : Thread nD τ).loc main_arg3)) o := by
  have e : (V m c main_v20 : S192.Idx → EReal)
      = extractStridedSlice S192 ![384] ((m ((c : Thread nD τ).loc main_arg3)) : S576.Idx → EReal) slices_S576_S192_384 := by
    dsimp only [Gen.V, Gen.hostOps0]; after_results <;> rfl
  rw [e]
  refine extractStridedSlice_apply _ _ _ _ _ fun ax => ?_
  match ax with
  | ⟨0, _⟩ => show 2 * 192 + o.val = 384 + o.val; omega

/-- The output weights transposed: entry (a, o) is the argument's entry (o, a). -/
theorem proj_weights (c : Dev nD) (a o : Fin 192) :
    (V m c main_v21 : S192x192.Idx → EReal) (ix2 a o) = ((m ((c : Thread nD τ).loc main_arg7)) : S192x192.Idx → EReal) (ix2 o a) := by
  have e : (V m c main_v21 : S192x192.Idx → EReal)
      = transpose S192x192 [1, 0] ((m ((c : Thread nD τ).loc main_arg7)) : S192x192.Idx → EReal) transposes_S192x192_S192x192_1_0 := by
    dsimp only [Gen.V, Gen.hostOps0]; after_results <;> rfl
  rw [e]
  exact transpose_ix2_apply _ _ a o

/-- The six scales: exp of the smaller of the argument and the cap, held as [6]; the reference program computes the same
    array as [6, 1, 1], and entry h of the one is entry (h, 0, 0) of the other. -/
theorem scales (c : Dev nD) (h : Fin 6) :
    (V m c main_v13 : S6.Idx → EReal) (ix1 h)
      = Cert.ReferenceIdeal.Read.val_main_v25 (F := Ideal) (m ((c : Thread nD τ).loc main_arg4)) (ix3 h (0 : Fin 1) (0 : Fin 1)) := by
  have e : (V m c main_v13 : S6.Idx → EReal)
      = shapeCast S6 (Cert.ReferenceIdeal.Read.val_main_v25 (F := Ideal) (m ((c : Thread nD τ).loc main_arg4)) : S6x1x1.Idx → EReal)
          shapeCasts_S6x1x1_S6 := by
    dsimp only [Gen.V, Gen.hostOps0]; after_results <;> rfl
  rw [e]
  refine shapeCast_apply _ shapeCasts_S6x1x1_S6 (ix1 h) (ix3 h (0 : Fin 1) (0 : Fin 1)) ?_
  rw [Shape.rowMajor_val_three, Shape.rowMajor_val_one]
  show (h.val * 1 + 0) * 1 + 0 = h.val
  omega

/-- The positional term: the same chain of operations (flatten the index table, wrap its negative entries, gather the
    rows of the bias table, unflatten, heads first) as the reference program's, over the same two arguments. -/
theorem positional (c : Dev nD) :
    (V m c main_v9 : S6x49x49.Idx → EReal)
      = Cert.ReferenceIdeal.Read.val_main_v38 (F := Ideal) (m ((c : Thread nD τ).loc main_arg5)) (m ((c : Thread nD τ).loc main_arg6)) := by
  dsimp only [Gen.V, Gen.hostOps0]; after_results <;> rfl

end Cert.KernelIdeal.ArrayValue

end
-- ==== Proof.KernelArray.lean ====
/-
  From the blocks to the whole output array. The launch runs 128 points; point t holds rows 32·t … 32·t + 31 of the
  [4096, 49, 192] input, the masks 32·(t % 2) … 32·(t % 2) + 31 of the 64, and every other array whole, and writes rows
  32·t … 32·t + 31 of the output. Given that what a point stores is the window function of the blocks it holds (the
  hypothesis on the body), row j of point t's block is the window function of input row 32·t + j and mask (32·t + j) % 64:
  block t of ONE function of the argument arrays, the specification's result. The 128 blocks cover the output, so the array
  after the run is that function.
-/
import proofs.«103782_j27470610825456_2_alg».proof.Proof.Gen.KernelIdeal.Value
import proofs.«103782_j27470610825456_2_alg».proof.Proof.KernelOutStmt
import proofs.«103782_j27470610825456_2_alg».proof.Proof.Spec
import proofs.«103782_j27470610825456_2_alg».proof.Proof.Gen.ReferenceIdeal.Read
import proofs.«103782_j27470610825456_2_alg».proof.Proof.KernelHostArrays
import Idealize.ShloMosaic.Lib.Pipeline.Value
import Idealize.ShloMosaic.Lib.ValueLayout
import Idealize.ShloMosaic.Lib.Tactic

noncomputable section

namespace Cert.KernelIdeal.ArrayValue

open Cert.KernelIdeal Cert.KernelIdeal.Gen Cert.KernelIdeal.BlockValue Idealize.ShloMosaic Idealize.ShloMosaic.TcCoe Idealize.SL.Sem
open Idealize.ShloMosaic.ValueIdx Cert.WindowAttn
open Idealize.ShloMosaic.Pipeline (Dat)

section Blocks

variable (m : (ℓ : Loc nD τ sig) → Buf (Elt Ideal) ℓ)

/-! ## The index maps over the grid -/

/-- The rows' window and the output's window sit at block (t, 0, 0) at point t; the masks' at (t % 2, 0, 0). -/
theorem idx_rows : ∀ t : Fin cfg0.N,
    win0_0.index t (0 : Fin 3) = t.val ∧ win0_0.index t (1 : Fin 3) = 0 ∧ win0_0.index t (2 : Fin 3) = 0
    ∧ win0_9.index t (0 : Fin 3) = t.val % 2 ∧ win0_9.index t (1 : Fin 3) = 0 ∧ win0_9.index t (2 : Fin 3) = 0
    ∧ win0_12.index t (0 : Fin 3) = t.val ∧ win0_12.index t (1 : Fin 3) = 0 ∧ win0_12.index t (2 : Fin 3) = 0 :=
  (by decide +kernel : ∀ t : Fin grid0.N, _)

/-- Every other window is its whole array at every point: block index 0 on every axis. -/
theorem idx_whole : ∀ t : Fin cfg0.N,
    (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ win0_7.index t (0 : Fin 1) = 0
    ∧ (win0_8.index t (0 : Fin 3) = 0 ∧ win0_8.index t (1 : Fin 3) = 0 ∧ win0_8.index t (2 : Fin 3) = 0)
    ∧ (win0_10.index t (0 : Fin 2) = 0 ∧ win0_10.index t (1 : Fin 2) = 0)
    ∧ win0_11.index t (0 : Fin 1) = 0 :=
  (by decide +kernel : ∀ t : Fin grid0.N, _)

/-! ## Each window's block at a point, read at an index -/

/-- Row j of the rows' block at point t is row 32·t + j of the argument. -/
theorem rows_apply (c : Dev nD) (t : Fin cfg0.N) (j : Fin 32) (n : Fin 49) (k : Fin 192) (b : Fin 4096)
    (hb : b.val = 32 * t.val + j.val) :
    (iblk m c 0 t : Vec Ideal S32x49x192 .f32) (ix3 j n k)
      = (m ((c : Thread nD τ).loc main_arg0) : S4096x49x192.Idx → EReal) (ix3 b n k) := by
  obtain ⟨e0, e1, e2, -⟩ := idx_rows t
  unfold iblk
  rw [View.read_apply]
  show V m c main_arg0 _ = _
  rw [V_main_arg0]
  refine congrArg (m ((c : Thread nD τ).loc main_arg0) : S4096x49x192.Idx → EReal) ?_
  funext d; apply Fin.ext
  match d with
  | ⟨0, _⟩ => show win0_0.index t (0 : Fin 3) * 32 + 1 * j.val = b.val; omega
  | ⟨1, _⟩ => show win0_0.index t (1 : Fin 3) * 49 + 1 * n.val = n.val; omega
  | ⟨2, _⟩ => show win0_0.index t (2 : Fin 3) * 192 + 1 * k.val = k.val; omega

/-- Row j of the masks' block at point t is mask number 32·(t % 2) + j. -/
theorem masks_apply (c : Dev nD) (t : Fin cfg0.N) (j : Fin 32) (n k : Fin 49) (q : Fin 64)
    (hq : q.val = 32 * (t.val % 2) + j.val) :
    (iblk m c 9 t : Vec Ideal S32x49x49 .f32) (ix3 j n k)
      = (m ((c : Thread nD τ).loc main_arg1) : S64x49x49.Idx → EReal) (ix3 q n k) := by
  obtain ⟨-, -, -, e0, e1, e2, -⟩ := idx_rows t
  unfold iblk
  rw [View.read_apply]
  show V m c main_arg1 _ = _
  rw [V_main_arg1]
  refine congrArg (m ((c : Thread nD τ).loc main_arg1) : S64x49x49.Idx → EReal) ?_
  funext d; apply Fin.ext
  match d with
  | ⟨0, _⟩ => show win0_9.index t (0 : Fin 3) * 32 + 1 * j.val = q.val; omega
  | ⟨1, _⟩ => show win0_9.index t (1 : Fin 3) * 49 + 1 * n.val = n.val; omega
  | ⟨2, _⟩ => show win0_9.index t (2 : Fin 3) * 49 + 1 * k.val = k.val; omega

/-- The other windows are whole arrays: the block at any point, read at an index, is the array there. -/
theorem wq_apply (c : Dev nD) (t : Fin cfg0.N) (a b : Fin 192) :
    (iblk m c 1 t : Vec Ideal S192x192 .f32) (ix2 a b) = (V m c main_v15 : S192x192.Idx → EReal) (ix2 a b) := by
  obtain ⟨e0, e1⟩ := (idx_whole t).1
  unfold iblk
  rw [View.read_apply]
  show V m c main_v15 _ = _
  refine congrArg (V m c main_v15 : S192x192.Idx → EReal) ?_
  funext d; apply Fin.ext
  match d with
  | ⟨0, _⟩ => show win0_1.index t (0 : Fin 2) * 192 + 1 * a.val = a.val; omega
  | ⟨1, _⟩ => show win0_1.index t (1 : Fin 2) * 192 + 1 * b.val = b.val; omega

theorem bq_apply (c : Dev nD) (t : Fin cfg0.N) (a : Fin 192) :
    (iblk m c 2 t : Vec Ideal S192 .f32) (ix1 a) = (V m c main_v18 : S192.Idx → EReal) (ix1 a) := by
  have e0 := (idx_whole t).2.1
  unfold iblk
  rw [View.read_apply]
  show V m c main_v18 _ = _
  refine congrArg (V m c main_v18 : S192.Idx → EReal) ?_
  funext d; apply Fin.ext
  match d with
  | ⟨0, _⟩ => show win0_2.index t (0 : Fin 1) * 192 + 1 * a.val = a.val; omega

theorem wk_apply (c : Dev nD) (t : Fin cfg0.N) (a b : Fin 192) :
    (iblk m c 3 t : Vec Ideal S192x192 .f32) (ix2 a b) = (V m c main_v16 : S192x192.Idx → EReal) (ix2 a b) := by
  obtain ⟨e0, e1⟩ := (idx_whole t).2.2.1
  unfold iblk
  rw [View.read_apply]
  show V m c main_v16 _ = _
  refine congrArg (V m c main_v16 : S192x192.Idx → EReal) ?_
  funext d; apply Fin.ext
  match d with
  | ⟨0, _⟩ => show win0_3.index t (0 : Fin 2) * 192 + 1 * a.val = a.val; omega
  | ⟨1, _⟩ => show win0_3.index t (1 : Fin 2) * 192 + 1 * b.val = b.val; omega

theorem bk_apply (c : Dev nD) (t : Fin cfg0.N) (a : Fin 192) :
    (iblk m c 4 t : Vec Ideal S192 .f32) (ix1 a) = (V m c main_v19 : S192.Idx → EReal) (ix1 a) := by
  have e0 := (idx_whole t).2.2.2.1
  unfold iblk
  rw [View.read_apply]
  show V m c main_v19 _ = _
  refine congrArg (V m c main_v19 : S192.Idx → EReal) ?_
  funext d; apply Fin.ext
  match d with
  | ⟨0, _⟩ => show win0_4.index t (0 : Fin 1) * 192 + 1 * a.val = a.val; omega

theorem wv_apply (c : Dev nD) (t : Fin cfg0.N) (a b : Fin 192) :
    (iblk m c 5 t : Vec Ideal S192x192 .f32) (ix2 a b) = (V m c main_v17 : S192x192.Idx → EReal) (ix2 a b) := by
  obtain ⟨e0, e1⟩ := (idx_whole t).2.2.2.2.1
  unfold iblk
  rw [View.read_apply]
  show V m c main_v17 _ = _
  refine congrArg (V m c main_v17 : S192x192.Idx → EReal) ?_
  funext d; apply Fin.ext
  match d with
  | ⟨0, _⟩ => show win0_5.index t (0 : Fin 2) * 192 + 1 * a.val = a.val; omega
  | ⟨1, _⟩ => show win0_5.index t (1 : Fin 2) * 192 + 1 * b.val = b.val; omega

theorem bv_apply (c : Dev nD) (t : Fin cfg0.N) (a : Fin 192) :
    (iblk m c 6 t : Vec Ideal S192 .f32) (ix1 a) = (V m c main_v20 : S192.Idx → EReal) (ix1 a) := by
  have e0 := (idx_whole t).2.2.2.2.2.1
  unfold iblk
  rw [View.read_apply]
  show V m c main_v20 _ = _
  refine congrArg (V m c main_v20 : S192.Idx → EReal) ?_
  funext d; apply Fin.ext
  match d with
  | ⟨0, _⟩ => show win0_6.index t (0 : Fin 1) * 192 + 1 * a.val = a.val; omega

theorem scale_apply (c : Dev nD) (t : Fin cfg0.N) (a : Fin 6) :
    (iblk m c 7 t : Vec Ideal S6 .f32) (ix1 a) = (V m c main_v13 : S6.Idx → EReal) (ix1 a) := by
  have e0 := (idx_whole t).2.2.2.2.2.2.1
  unfold iblk
  rw [View.read_apply]
  show V m c main_v13 _ = _
  refine congrArg (V m c main_v13 : S6.Idx → EReal) ?_
  funext d; apply Fin.ext
  match d with
  | ⟨0, _⟩ => show win0_7.index t (0 : Fin 1) * 6 + 1 * a.val = a.val; omega

theorem wp_apply (c : Dev nD) (t : Fin cfg0.N) (a b : Fin 192) :
    (iblk m c 10 t : Vec Ideal S192x192 .f32) (ix2 a b) = (V m c main_v21 : S192x192.Idx → EReal) (ix2 a b) := by
  obtain ⟨e0, e1⟩ := (idx_whole t).2.2.2.2.2.2.2.2.1
  unfold iblk
  rw [View.read_apply]
  show V m c main_v21 _ = _
  refine congrArg (V m c main_v21 : S192x192.Idx → EReal) ?_
  funext d; apply Fin.ext
  match d with
  | ⟨0, _⟩ => show win0_10.index t (0 : Fin 2) * 192 + 1 * a.val = a.val; omega
  | ⟨1, _⟩ => show win0_10.index t (1 : Fin 2) * 192 + 1 * b.val = b.val; omega

theorem bp_apply (c : Dev nD) (t : Fin cfg0.N) (a : Fin 192) :
    (iblk m c 11 t : Vec Ideal S192 .f32) (ix1 a) = (V m c main_arg8 : S192.Idx → EReal) (ix1 a) := by
  have e0 := (idx_whole t).2.2.2.2.2.2.2.2.2
  unfold iblk
  rw [View.read_apply]
  show V m c main_arg8 _ = _
  refine congrArg (V m c main_arg8 : S192.Idx → EReal) ?_
  funext d; apply Fin.ext
  match d with
  | ⟨0, _⟩ => show win0_11.index t (0 : Fin 1) * 192 + 1 * a.val = a.val; omega

theorem pos_apply (c : Dev nD) (t : Fin cfg0.N) (h : Fin 6) (n k : Fin 49) :
    (iblk m c 8 t : Vec Ideal S6x49x49 .f32) (ix3 h n k) = (V m c main_v9 : S6x49x49.Idx → EReal) (ix3 h n k) := by
  obtain ⟨e0, e1, e2⟩ := (idx_whole t).2.2.2.2.2.2.2.1
  unfold iblk
  rw [View.read_apply]
  show V m c main_v9 _ = _
  refine congrArg (V m c main_v9 : S6x49x49.Idx → EReal) ?_
  funext d; apply Fin.ext
  match d with
  | ⟨0, _⟩ => show win0_8.index t (0 : Fin 3) * 6 + 1 * h.val = h.val; omega
  | ⟨1, _⟩ => show win0_8.index t (1 : Fin 3) * 49 + 1 * n.val = n.val; omega
  | ⟨2, _⟩ => show win0_8.index t (2 : Fin 3) * 49 + 1 * k.val = k.val; omega

/-! ## The whole output array -/

/-- The window function depends on its twelve arguments only through their values. -/
theorem window_congr (ε ν : EReal) {X X' : Fin 49 → Fin 192 → EReal}
    {Wq Wq' : Fin 192 → Fin 192 → EReal} {bq bq' : Fin 192 → EReal} {Wk Wk' : Fin 192 → Fin 192 → EReal} {bk bk' : Fin 192 → EReal}
    {Wv Wv' : Fin 192 → Fin 192 → EReal} {bv bv' : Fin 192 → EReal} {s s' : Fin 6 → EReal} {B B' : Fin 6 → Fin 49 → Fin 49 → EReal}
    {M M' : Fin 49 → Fin 49 → EReal} {Wp Wp' : Fin 192 → Fin 192 → EReal} {bp bp' : Fin 192 → EReal}
    (hX : ∀ n k, X n k = X' n k) (hWq : ∀ a o, Wq a o = Wq' a o) (hbq : ∀ o, bq o = bq' o)
    (hWk : ∀ a o, Wk a o = Wk' a o) (hbk : ∀ o, bk o = bk' o) (hWv : ∀ a o, Wv a o = Wv' a o) (hbv : ∀ o, bv o = bv' o)
    (hs : ∀ h, s h = s' h) (hB : ∀ h n k, B h n k = B' h n k) (hM : ∀ n k, M n k = M' n k)
    (hWp : ∀ a o, Wp a o = Wp' a o) (hbp : ∀ o, bp o = bp' o) (n : Fin 49) (o : Fin 192) :
    window ε ν X Wq bq Wk bk Wv bv s B M Wp bp n o = window ε ν X' Wq' bq' Wk' bk' Wv' bv' s' B' M' Wp' bp' n o := by
  obtain rfl : X = X' := funext fun n => funext fun k => hX n k
  obtain rfl : Wq = Wq' := funext fun a => funext fun o => hWq a o
  obtain rfl : bq = bq' := funext hbq
  obtain rfl : Wk = Wk' := funext fun a => funext fun o => hWk a o
  obtain rfl : bk = bk' := funext hbk
  obtain rfl : Wv = Wv' := funext fun a => funext fun o => hWv a o
  obtain rfl : bv = bv' := funext hbv
  obtain rfl : s = s' := funext hs
  obtain rfl : B = B' := funext fun h => funext fun n => funext fun k => hB h n k
  obtain rfl : M = M' := funext fun n => funext fun k => hM n k
  obtain rfl : Wp = Wp' := funext fun a => funext fun o => hWp a o
  obtain rfl : bp = bp' := funext hbp
  rfl

/-- THE OUTPUT ARRAY as one function of the argument arrays: the specification's result, with the scales and the
    positional term as the reference program's stages compute them from their arguments. -/
abbrev G (c : Dev nD) : S4096x49x192.Idx → EReal :=
  result (m ((c : Thread nD τ).loc main_arg0)) (m ((c : Thread nD τ).loc main_arg1)) (m ((c : Thread nD τ).loc main_arg2)) (m ((c : Thread nD τ).loc main_arg3))
    (Cert.ReferenceIdeal.Read.val_main_v25 (F := Ideal) (m ((c : Thread nD τ).loc main_arg4)))
    (Cert.ReferenceIdeal.Read.val_main_v38 (F := Ideal) (m ((c : Thread nD τ).loc main_arg5)) (m ((c : Thread nD τ).loc main_arg6)))
    (m ((c : Thread nD τ).loc main_arg7)) (m ((c : Thread nD τ).loc main_arg8))

/-- The body's stored block at point t, over the windows' blocks there. -/
abbrev outAt (c : Dev nD) (t : Fin cfg0.N) : Vec Ideal S32x49x192 .f32 :=
  out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Entry (j, n, o) of what point t stores is entry (32·t + j, n, o) of the output array. -/
theorem point_value (hout : OutAt) (c : Dev nD) (t : Fin cfg0.N) (j : Fin 32) (n : Fin 49) (o : Fin 192) (b : Fin 4096)
    (hb : b.val = 32 * t.val + j.val) : outAt m c t (ix3 j n o) = G m c (ix3 b n o) := by
  refine (hout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j n o).trans ?_
  have hj := j.isLt
  exact window_congr eps negInf (fun n' k => rows_apply m c t j n' k b hb)
    (fun a o' => (wq_apply m c t a o').trans (in_weights0 m c a o')) (fun o' => (bq_apply m c t o').trans (in_bias0 m c o'))
    (fun a o' => (wk_apply m c t a o').trans (in_weights1 m c a o')) (fun o' => (bk_apply m c t o').trans (in_bias1 m c o'))
    (fun a o' => (wv_apply m c t a o').trans (in_weights2 m c a o')) (fun o' => (bv_apply m c t o').trans (in_bias2 m c o'))
    (fun h => (scale_apply m c t h).trans (scales m c h))
    (fun h n' k => (pos_apply m c t h n' k).trans (congrFun (positional m c) (ix3 h n' k)))
    (fun n' k => masks_apply m c t j n' k ⟨b.val % 64, Nat.mod_lt _ (by decide)⟩ (by show b.val % 64 = _; omega))
    (fun a o' => (wp_apply m c t a o').trans (proj_weights m c a o'))
    (fun o' => (bp_apply m c t o').trans (congrFun (V_main_arg8 m c) (ix1 o'))) n o

end Blocks

/-- WHAT POINT t WRITES BACK is block t of the output array. -/
theorem flushed_eq (hout : OutAt) (m : (ℓ : Loc nD τ sig) → Buf (Elt Ideal) ℓ) (c : Dev nD) (t : Fin cfg0.N) :
    (dats m 0 c).flushed 12 t = ((cfg0.win 12).blk t).view.read (Elt Ideal) (G m c) := by
  rw [Value.flushed12]
  funext y
  rw [View.read_apply]
  obtain ⟨-, -, -, -, -, -, e0, e1, e2⟩ := idx_rows t
  have hN : cfg0.N = 128 := N_0
  have ht : t.val < 128 := lt_of_lt_of_eq t.isLt hN
  have hy0 : (y 0).val < 32 := (y 0).isLt
  have hy1 : (y 1).val < 49 := (y 1).isLt
  have hy2 : (y 2).val < 192 := (y 2).isLt
  have key := point_value m hout c t ⟨(y 0).val, hy0⟩ ⟨(y 1).val, hy1⟩ ⟨(y 2).val, hy2⟩
    ⟨32 * t.val + (y 0).val, by omega⟩ rfl
  refine Eq.trans ?_ (key.trans ?_)
  · show outAt m c t ((cfg0.win 12).xinj (grid0.coords t) y) = _
    refine congrArg (outAt m c t) ?_
    funext d
    match d with
    | ⟨0, _⟩ => rfl
    | ⟨1, _⟩ => rfl
    | ⟨2, _⟩ => rfl
  · refine congrArg (G m c) ?_
    funext d; apply Fin.ext
    match d with
    | ⟨0, _⟩ => show 32 * t.val + (y 0).val = win0_12.index t (0 : Fin 3) * 32 + 1 * (y 0).val; omega
    | ⟨1, _⟩ => show (y 1).val = win0_12.index t (1 : Fin 3) * 49 + 1 * (y 1).val; omega
    | ⟨2, _⟩ => show (y 2).val = win0_12.index t (2 : Fin 3) * 192 + 1 * (y 2).val; omega

/-- An index of the array is in point t's block iff each coordinate is in the block's range on its axis. -/
theorem mem_blk (t : Fin cfg0.N) (i : S4096x49x192.Idx) :
    i ∈ ((cfg0.win 12).blk t).view.set ↔ ∀ a : Fin 3, win0_12.index t a * S32x49x192.size a ≤ (i a).val
      ∧ (i a).val < win0_12.index t a * S32x49x192.size a + S32x49x192.size a := by
  show i ∈ ((View.whole main_v22).slice (win0_12.rect t)).set ↔ _
  rw [View.set_slice_whole, Rect.mem_set_unit]
  exact Iff.rfl

/-- Row b of the output lies in the block of point b / 32: the blocks cover the array. -/
theorem cover (i : S4096x49x192.Idx) :
    ∃ t : Fin cfg0.N, (cfg0.win 12).flush t = true ∧ i ∈ ((cfg0.win 12).blk t).view.set := by
  have h0 : (i 0).val < 4096 := (i 0).isLt
  have h1 : (i 1).val < 49 := (i 1).isLt
  have h2 : (i 2).val < 192 := (i 2).isLt
  have hN : cfg0.N = 128 := N_0
  obtain ⟨t, ht⟩ : ∃ t : Fin cfg0.N, t.val = (i 0).val / 32 :=
    ⟨⟨(i 0).val / 32, lt_of_lt_of_eq (by omega : (i 0).val / 32 < 128) hN.symm⟩, rfl⟩
  obtain ⟨-, -, -, -, -, -, e0, e1, e2⟩ := idx_rows t
  refine ⟨t, flush0_12 t, ?_⟩
  rw [mem_blk]
  intro a
  match a with
  | ⟨0, _⟩ => show win0_12.index t (0 : Fin 3) * 32 ≤ (i 0).val ∧ (i 0).val < win0_12.index t (0 : Fin 3) * 32 + 32; omega
  | ⟨1, _⟩ => show win0_12.index t (1 : Fin 3) * 49 ≤ (i 1).val ∧ (i 1).val < win0_12.index t (1 : Fin 3) * 49 + 49; omega
  | ⟨2, _⟩ => show win0_12.index t (2 : Fin 3) * 192 ≤ (i 2).val ∧ (i 2).val < win0_12.index t (2 : Fin 3) * 192 + 192; omega

/-- THE ARRAY after the run is the output array of the specification. -/
theorem final (hout : OutAt) (m : (ℓ : Loc nD τ sig) → Buf (Elt Ideal) ℓ) (c : Dev nD) : (dats m 0 c).arrAt 12 cfg0.N = G m c :=
  (dats m 0 c).arrAt_eq_of_cover 12 (G m c) (fun t _ => flushed_eq hout m c t) cover

/-- The kernel's run, read: the result array at the specification's output, the nine arguments unchanged. -/
theorem run (hout : OutAt) (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v22) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final hout m c), (h c).2⟩) (Value.run_blocks m ρ)

end Cert.KernelIdeal.ArrayValue

end
-- ==== Proof.RefHeads.lean ====
/-
  The reference program, first part: the three input layers and the unit vectors.

  The program computes one affine layer of 576 outputs per token, Y = X · Wᵀ + bias, and then views the 576 outputs as
  3 blocks (queries, keys, values) of 6 heads of 32 lanes: output number blk · 192 + h · 32 + d is lane d of head h of
  block blk. Read at (window b, head h, token n, lane d), block blk is therefore the affine layer of the specification
  built from rows blk · 192 … blk · 192 + 191 of the stacked weights and bias, at channel h · 32 + d.

  The query and key vectors are then divided, lane by lane, by the clamped Euclidean length of the head's 32-vector.
  The host sum of squares starts from the zero word, which adds nothing.
-/
import proofs.«103782_j27470610825456_2_alg».proof.Proof.Gen.ReferenceIdeal.Read
import proofs.«103782_j27470610825456_2_alg».proof.Proof.Spec

noncomputable section

namespace Cert.ReferenceIdeal.RefValue

open Cert.ReferenceIdeal Cert.ReferenceIdeal.Read Cert.WindowAttn Idealize.ShloMosaic Idealize.ShloMosaic.ValueIdx
open scoped BigOperators

variable (x0 : (⟨S4096x49x192, .f32⟩ : BufTy).Contents (Elt Ideal)) (x1 : (⟨S64x49x49, .f32⟩ : BufTy).Contents (Elt Ideal)) (x2 : (⟨S576x192, .f32⟩ : BufTy).Contents (Elt Ideal)) (x3 : (⟨S576, .f32⟩ : BufTy).Contents (Elt Ideal)) (x4 : (⟨S6x1x1, .f32⟩ : BufTy).Contents (Elt Ideal)) (x5 : (⟨S169x6, .f32⟩ : BufTy).Contents (Elt Ideal)) (x6 : (⟨S49x49, .i32⟩ : BufTy).Contents (Elt Ideal)) (x7 : (⟨S192x192, .f32⟩ : BufTy).Contents (Elt Ideal)) (x8 : (⟨S192, .f32⟩ : BufTy).Contents (Elt Ideal))

/-- Token n of window b through block blk of the stacked input layer: a row of 192 channels. -/
def proj (blk : ℕ) (hblk : blk < 3) (b : Fin 4096) (n : Fin 49) : Fin 192 → EReal :=
  lin (fun c => x0 (ix3 b n c)) (inW blk hblk x2) (inB blk hblk x3)

/-- The stacked affine layer at (window b, token n, output o): the row of x against row o of the weights, plus the bias. -/
theorem v3_at (b : Fin 4096) (n : Fin 49) (o : Fin 576) :
    val_main_v3 (F := Ideal) x0 x2 x3 (ix3 b n o) = (∑ c : Fin 192, x0 (ix3 b n c) * x2 (ix2 o c)) + x3 (ix1 o) := by
  rw [val_main_v3_apply, val_main_v0_apply, val_main_v2_apply, val_main_v1_apply]
  have el : ∀ k : Fin 192, lidx_main_v0 (ix3 b n o) k = ix3 b n k := fun k => funext fun a => by
    match a with
    | ⟨0, _⟩ => rfl
    | ⟨1, _⟩ => rfl
    | ⟨2, _⟩ => rfl
  have er : ∀ k : Fin 192, ridx_main_v0 (ix3 b n o) k = ix2 o k := fun k => funext fun a => by
    match a with
    | ⟨0, _⟩ => rfl
    | ⟨1, _⟩ => rfl
  have eb : idx_main_v1 (idx_main_v2 (ix3 b n o)) = ix1 o := funext fun a => by
    match a with
    | ⟨0, _⟩ => rfl
  simp only [el, er, eb]
  rfl

/-- The 576 outputs viewed as 3 × 6 × 32 and block blk brought to the front: entry (blk, b, h, n, d) is output
    blk · 192 + h · 32 + d of token n of window b. -/
theorem v5_at (blk : ℕ) (hblk : blk < 3) (b : Fin 4096) (h : Fin 6) (n : Fin 49) (d : Fin 32) :
    val_main_v5 (F := Ideal) x0 x2 x3 (ix5 (⟨blk, hblk⟩ : Fin 3) b h n d) = proj x0 x2 x3 blk hblk b n (chan h d) := by
  rw [val_main_v5_apply, val_main_v4_apply]
  have e : idx_main_v4 (idx_main_v5 (ix5 (⟨blk, hblk⟩ : Fin 3) b h n d))
      = ix3 b n (⟨blk * 192 + (chan h d).val, by have := (chan h d).isLt; omega⟩ : Fin 576) :=
    funext fun a => Fin.ext (by
      have hb := b.isLt; have hh := h.isLt; have hn := n.isLt; have hd := d.isLt
      match a with
      | ⟨0, _⟩ => show ((((b.val * 49 + n.val) * 3 + blk) * 6 + h.val) * 32 + d.val) / 28224 = b.val; omega
      | ⟨1, _⟩ => show ((((b.val * 49 + n.val) * 3 + blk) * 6 + h.val) * 32 + d.val) / 576 % 49 = n.val; omega
      | ⟨2, _⟩ => show ((((b.val * 49 + n.val) * 3 + blk) * 6 + h.val) * 32 + d.val) % 576 = blk * 192 + (h.val * 32 + d.val); omega)
  rw [e, v3_at]
  rfl

/-- Dropping a leading axis of size one: (b, h, n, d) of the rank-4 array is (0, b, h, n, d) of the rank-5 one. -/
theorem lead_one (b : Fin 4096) (h : Fin 6) (n : Fin 49) (d : Fin 32) :
    idx_main_v7 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 6 + h.val) * 49 + n.val) * 32 + d.val) / 9408 % 4096 = b.val; omega
    | ⟨2, _⟩ => show (((b.val * 6 + h.val) * 49 + n.val) * 32 + d.val) / 1568 % 6 = h.val; omega
    | ⟨3, _⟩ => show (((b.val * 6 + h.val) * 49 + n.val) * 32 + d.val) / 32 % 49 = n.val; omega
    | ⟨4, _⟩ => show (((b.val * 6 + h.val) * 49 + n.val) * 32 + d.val) % 32 = d.val; omega)

/-- The queries before normalisation. -/
theorem v7_at (b : Fin 4096) (h : Fin 6) (n : Fin 49) (d : Fin 32) :
    val_main_v7 (F := Ideal) x0 x2 x3 (ix4 b h n d) = proj x0 x2 x3 0 (by decide) b n (chan h d) := by
  rw [val_main_v7_apply, val_main_v6_apply, lead_one]
  have e : idx_main_v6 (ix5 (0 : Fin 1) b h n d) = ix5 (⟨0, by decide⟩ : Fin 3) b h n d := funext fun a => by
    match a with
    | ⟨0, _⟩ => rfl
    | ⟨1, _⟩ => rfl
    | ⟨2, _⟩ => rfl
    | ⟨3, _⟩ => rfl
    | ⟨4, _⟩ => rfl
  rw [e]
  exact v5_at x0 x2 x3 0 (by decide) b h n d

/-- The keys before normalisation. -/
theorem v9_at (b : Fin 4096) (h : Fin 6) (n : Fin 49) (d : Fin 32) :
    val_main_v9 (F := Ideal) x0 x2 x3 (ix4 b h n d) = proj x0 x2 x3 1 (by decide) b n (chan h d) := by
  rw [val_main_v9_apply, val_main_v8_apply]
  have e : idx_main_v8 (idx_main_v9 (ix4 b h n d)) = ix5 (⟨1, by decide⟩ : Fin 3) b h n d := by
    show idx_main_v8 (idx_main_v7 (ix4 b h n d)) = _
    rw [lead_one]
    exact funext fun a => by
      match a with
      | ⟨0, _⟩ => rfl
      | ⟨1, _⟩ => rfl
      | ⟨2, _⟩ => rfl
      | ⟨3, _⟩ => rfl
      | ⟨4, _⟩ => rfl
  rw [e]
  exact v5_at x0 x2 x3 1 (by decide) b h n d

/-- The values. -/
theorem v11_at (b : Fin 4096) (h : Fin 6) (n : Fin 49) (d : Fin 32) :
    val_main_v11 (F := Ideal) x0 x2 x3 (ix4 b h n d) = proj x0 x2 x3 2 (by decide) b n (chan h d) := by
  rw [val_main_v11_apply, val_main_v10_apply]
  have e : idx_main_v10 (idx_main_v11 (ix4 b h n d)) = ix5 (⟨2, by decide⟩ : Fin 3) b h n d := by
    show idx_main_v10 (idx_main_v7 (ix4 b h n d)) = _
    rw [lead_one]
    exact funext fun a => by
      match a with
      | ⟨0, _⟩ => rfl
      | ⟨1, _⟩ => rfl
      | ⟨2, _⟩ => rfl
      | ⟨3, _⟩ => rfl
      | ⟨4, _⟩ => rfl
  rw [e]
  exact v5_at x0 x2 x3 2 (by decide) b h n d

/-- The clamped length of the query vector of (window b, head h, token n). -/
theorem v14_at (b : Fin 4096) (h : Fin 6) (n : Fin 49) :
    val_main_v14 (F := Ideal) x0 x2 x3 (ix4 b h n (0 : Fin 1))
      = len eps (fun d => proj x0 x2 x3 0 (by decide) b n (chan h d)) := by
  rw [val_main_v14_apply, val_main_v12_apply, val_main_call0_v2_apply, val_main_call0_v1_apply, val_main_v13_apply]
  have e : ∀ k : Fin 32, idx_main_call0_v1 (idx_main_call0_v2 (ix4 b h n (0 : Fin 1))) k = ix4 b h n k :=
    fun k => funext fun a => by
      match a with
      | ⟨0, _⟩ => rfl
      | ⟨1, _⟩ => rfl
      | ⟨2, _⟩ => rfl
      | ⟨3, _⟩ => rfl
  simp only [e, val_main_call0_v0_apply, val_main_cst_apply, val_main_call0_cst_apply, v7_at, Ideal.ofBits_def,
    Ideal.ofBits_zero_f32, zero_add, Ideal.mulf_def, Ideal.maximumf_def, Ideal.hostUnary_sqrt_def]
  rfl

/-- The clamped length of the key vector of (window b, head h, token n). -/
theorem v19_at (b : Fin 4096) (h : Fin 6) (n : Fin 49) :
    val_main_v19 (F := Ideal) x0 x2 x3 (ix4 b h n (0 : Fin 1))
      = len eps (fun d => proj x0 x2 x3 1 (by decide) b n (chan h d)) := by
  rw [val_main_v19_apply, val_main_v17_apply, val_main_call1_v2_apply, val_main_call1_v1_apply, val_main_v18_apply]
  have e : ∀ k : Fin 32, idx_main_call1_v1 (idx_main_call1_v2 (ix4 b h n (0 : Fin 1))) k = ix4 b h n k :=
    fun k => funext fun a => by
      match a with
      | ⟨0, _⟩ => rfl
      | ⟨1, _⟩ => rfl
      | ⟨2, _⟩ => rfl
      | ⟨3, _⟩ => rfl
  simp only [e, val_main_call1_v0_apply, val_main_cst_0_apply, val_main_call1_cst_apply, v9_at, Ideal.ofBits_def,
    Ideal.ofBits_zero_f32, zero_add, Ideal.mulf_def, Ideal.maximumf_def, Ideal.hostUnary_sqrt_def]
  rfl

/-- The unit query vectors. -/
theorem v16_at (b : Fin 4096) (h : Fin 6) (n : Fin 49) (d : Fin 32) :
    val_main_v16 (F := Ideal) x0 x2 x3 (ix4 b h n d)
      = Ideal.div (proj x0 x2 x3 0 (by decide) b n (chan h d))
          (len eps (fun d' => proj x0 x2 x3 0 (by decide) b n (chan h d'))) := by
  rw [val_main_v16_apply, val_main_v15_apply, v7_at]
  have e : idx_main_v15 (ix4 b h n d) = ix4 b h n (0 : Fin 1) := funext fun a => by
    match a with
    | ⟨0, _⟩ => rfl
    | ⟨1, _⟩ => rfl
    | ⟨2, _⟩ => rfl
    | ⟨3, _⟩ => rfl
  rw [e, v14_at]
  rfl

/-- The unit key vectors. -/
theorem v21_at (b : Fin 4096) (h : Fin 6) (n : Fin 49) (d : Fin 32) :
    val_main_v21 (F := Ideal) x0 x2 x3 (ix4 b h n d)
      = Ideal.div (proj x0 x2 x3 1 (by decide) b n (chan h d))
          (len eps (fun d' => proj x0 x2 x3 1 (by decide) b n (chan h d'))) := by
  rw [val_main_v21_apply, val_main_v20_apply, v9_at]
  have e : idx_main_v20 (ix4 b h n d) = ix4 b h n (0 : Fin 1) := funext fun a => by
    match a with
    | ⟨0, _⟩ => rfl
    | ⟨1, _⟩ => rfl
    | ⟨2, _⟩ => rfl
    | ⟨3, _⟩ => rfl
  rw [e, v19_at]
  rfl

end Cert.ReferenceIdeal.RefValue

end
-- ==== Proof.RefScores.lean ====
/-
  The reference program, second part: the scores and the weights.

  The score of query token n against key token m in head h of window b is the dot product of the two unit vectors,
  times the head's scale, plus the positional term, plus the mask. The program adds the mask after viewing the 4096
  windows as 64 groups of 64: window b is number b % 64 of group b / 64 and takes mask b % 64; viewing the array
  as 64 × 64 and back changes nothing else.
-/
import proofs.«103782_j27470610825456_2_alg».proof.Proof.RefHeads

noncomputable section

namespace Cert.ReferenceIdeal.RefValue

open Cert.ReferenceIdeal Cert.ReferenceIdeal.Read Cert.WindowAttn Idealize.ShloMosaic Idealize.ShloMosaic.ValueIdx
open scoped BigOperators

variable (x0 : (⟨S4096x49x192, .f32⟩ : BufTy).Contents (Elt Ideal)) (x1 : (⟨S64x49x49, .f32⟩ : BufTy).Contents (Elt Ideal)) (x2 : (⟨S576x192, .f32⟩ : BufTy).Contents (Elt Ideal)) (x3 : (⟨S576, .f32⟩ : BufTy).Contents (Elt Ideal)) (x4 : (⟨S6x1x1, .f32⟩ : BufTy).Contents (Elt Ideal)) (x5 : (⟨S169x6, .f32⟩ : BufTy).Contents (Elt Ideal)) (x6 : (⟨S49x49, .i32⟩ : BufTy).Contents (Elt Ideal)) (x7 : (⟨S192x192, .f32⟩ : BufTy).Contents (Elt Ideal)) (x8 : (⟨S192, .f32⟩ : BufTy).Contents (Elt Ideal))

/-- The dot product of the unit query vector of token n and the unit key vector of token m. -/
theorem v22_at (b : Fin 4096) (h : Fin 6) (n m : Fin 49) :
    val_main_v22 (F := Ideal) x0 x2 x3 (ix4 b h n m)
      = cosine eps (fun d => proj x0 x2 x3 0 (by decide) b n (chan h d))
          (fun d => proj x0 x2 x3 1 (by decide) b m (chan h d)) := by
  rw [val_main_v22_apply]
  have el : ∀ k : Fin 32, lidx_main_v22 (ix4 b h n m) k = ix4 b h n k := fun k => funext fun a => by
    match a with
    | ⟨0, _⟩ => rfl
    | ⟨1, _⟩ => rfl
    | ⟨2, _⟩ => rfl
    | ⟨3, _⟩ => rfl
  have er : ∀ k : Fin 32, ridx_main_v22 (ix4 b h n m) k = ix4 b h m k := fun k => funext fun a => by
    match a with
    | ⟨0, _⟩ => rfl
    | ⟨1, _⟩ => rfl
    | ⟨2, _⟩ => rfl
    | ⟨3, _⟩ => rfl
  simp only [el, er, v16_at, v21_at]
  rfl

/-- The row of scores of query token n in head h of window b. -/
def scores (b : Fin 4096) (h : Fin 6) (n : Fin 49) : Fin 49 → EReal :=
  score eps (proj x0 x2 x3 0 (by decide) b) (proj x0 x2 x3 1 (by decide) b)
    (fun h' => val_main_v25 (F := Ideal) x4 (ix3 h' (0 : Fin 1) (0 : Fin 1)))
    (fun h' n' m' => val_main_v38 (F := Ideal) x5 x6 (ix3 h' n' m'))
    (fun n' m' => x1 (ix3 (⟨b.val % 64, Nat.mod_lt _ (by decide)⟩ : Fin 64) n' m')) h n

/-- The scores with scale, positional term and mask. -/
theorem v46_at (b : Fin 4096) (h : Fin 6) (n m : Fin 49) :
    val_main_v46 (F := Ideal) x0 x1 x2 x3 x4 x5 x6 (ix4 b h n m) = scores x0 x1 x2 x3 x4 x5 x6 b h n m := by
  have e46 : idx_main_v46 (ix4 b h n m)
      = ix5 (⟨b.val / 64, by have := b.isLt; omega⟩ : Fin 64) (⟨b.val % 64, Nat.mod_lt _ (by decide)⟩ : Fin 64) h n m :=
    funext fun a => Fin.ext (by
      have hb := b.isLt; have hh := h.isLt; have hn := n.isLt; have hm := m.isLt
      match a with
      | ⟨0, _⟩ => show (((b.val * 6 + h.val) * 49 + n.val) * 49 + m.val) / 921984 = b.val / 64; omega
      | ⟨1, _⟩ => show (((b.val * 6 + h.val) * 49 + n.val) * 49 + m.val) / 14406 % 64 = b.val % 64; omega
      | ⟨2, _⟩ => show (((b.val * 6 + h.val) * 49 + n.val) * 49 + m.val) / 2401 % 6 = h.val; omega
      | ⟨3, _⟩ => show (((b.val * 6 + h.val) * 49 + n.val) * 49 + m.val) / 49 % 49 = n.val; omega
      | ⟨4, _⟩ => show (((b.val * 6 + h.val) * 49 + n.val) * 49 + m.val) % 49 = m.val; omega)
  have e42 : idx_main_v42 (ix5 (⟨b.val / 64, by have := b.isLt; omega⟩ : Fin 64)
      (⟨b.val % 64, Nat.mod_lt _ (by decide)⟩ : Fin 64) h n m) = ix4 b h n m :=
    funext fun a => Fin.ext (by
      have hb := b.isLt; have hh := h.isLt; have hn := n.isLt; have hm := m.isLt
      match a with
      | ⟨0, _⟩ => show ((((b.val / 64 * 64 + b.val % 64) * 6 + h.val) * 49 + n.val) * 49 + m.val) / 14406 = b.val; omega
      | ⟨1, _⟩ => show ((((b.val / 64 * 64 + b.val % 64) * 6 + h.val) * 49 + n.val) * 49 + m.val) / 2401 % 6 = h.val; omega
      | ⟨2, _⟩ => show ((((b.val / 64 * 64 + b.val % 64) * 6 + h.val) * 49 + n.val) * 49 + m.val) / 49 % 49 = n.val; omega
      | ⟨3, _⟩ => show ((((b.val / 64 * 64 + b.val % 64) * 6 + h.val) * 49 + n.val) * 49 + m.val) % 49 = m.val; omega)
  have e44 : idx_main_v43 (idx_main_v44 (ix5 (⟨b.val / 64, by have := b.isLt; omega⟩ : Fin 64)
      (⟨b.val % 64, Nat.mod_lt _ (by decide)⟩ : Fin 64) h n m))
      = ix3 (⟨b.val % 64, Nat.mod_lt _ (by decide)⟩ : Fin 64) n m := funext fun a => by
    match a with
    | ⟨0, _⟩ => rfl
    | ⟨1, _⟩ => rfl
    | ⟨2, _⟩ => rfl
  have e40 : idx_main_v39 (idx_main_v40 (ix4 b h n m)) = ix3 h n m := funext fun a => by
    match a with
    | ⟨0, _⟩ => rfl
    | ⟨1, _⟩ => rfl
    | ⟨2, _⟩ => rfl
  have e27 : idx_main_v26 (idx_main_v27 (ix4 b h n m)) = ix3 h (0 : Fin 1) (0 : Fin 1) := funext fun a => by
    match a with
    | ⟨0, _⟩ => rfl
    | ⟨1, _⟩ => rfl
    | ⟨2, _⟩ => rfl
  rw [val_main_v46_apply, e46, val_main_v45_apply, val_main_v42_apply, e42, val_main_v44_apply, val_main_v43_apply, e44,
    val_main_v41_apply, val_main_v28_apply, val_main_v40_apply, val_main_v39_apply, e40, val_main_v27_apply,
    val_main_v26_apply, e27, v22_at]
  rfl

end Cert.ReferenceIdeal.RefValue

end
-- ==== Proof.RefSoft.lean ====
/-
  The reference program, third part: from a row of 49 scores to its weights.

  The largest entry of the row is folded from the word of −∞ and compared with that word once more; it is subtracted
  from every score, and the exponentials are divided by their sum. The host sum starts from the zero word, which adds
  nothing. The host's reduction over the last axis, at (window, head, token), is a fold over the 49 entries of that row,
  in any order.
-/
import proofs.«103782_j27470610825456_2_alg».proof.Proof.RefScores

noncomputable section

namespace Cert.ReferenceIdeal.RefValue

open Cert.ReferenceIdeal Cert.ReferenceIdeal.Gen Cert.ReferenceIdeal.Read Cert.WindowAttn Idealize.ShloMosaic Idealize.ShloMosaic.ValueIdx
open scoped BigOperators

variable (x0 : (⟨S4096x49x192, .f32⟩ : BufTy).Contents (Elt Ideal)) (x1 : (⟨S64x49x49, .f32⟩ : BufTy).Contents (Elt Ideal)) (x2 : (⟨S576x192, .f32⟩ : BufTy).Contents (Elt Ideal)) (x3 : (⟨S576, .f32⟩ : BufTy).Contents (Elt Ideal)) (x4 : (⟨S6x1x1, .f32⟩ : BufTy).Contents (Elt Ideal)) (x5 : (⟨S169x6, .f32⟩ : BufTy).Contents (Elt Ideal)) (x6 : (⟨S49x49, .i32⟩ : BufTy).Contents (Elt Ideal)) (x7 : (⟨S192x192, .f32⟩ : BufTy).Contents (Elt Ideal)) (x8 : (⟨S192, .f32⟩ : BufTy).Contents (Elt Ideal))

/-- A reduction with a maximum body over the last axis of any [4096, 6, 49, 49] array, at (b, h, n): the fold of max
    over the 49 entries of that row, from the initial value. -/
theorem host_lane_max (y : (⟨S4096x6x49x49, .f32⟩ : BufTy).Contents (Elt Ideal))
    (init : (⟨S_, .f32⟩ : BufTy).Contents (Elt Ideal)) (hR : S4096x6x49x49.Reduces [3] S4096x6x49)
    (b : Fin 4096) (h : Fin 6) (n : Fin 49) :
    Host.reduce (FloatOps.maximumf (F := Ideal) (φ := .f32)) y init reducesTo_S4096x6x49x49_S4096x6x49_d3 h_S_ (ix3 b h n)
      = (Finset.univ : Finset (Fin 49)).fold max (init (Shape.Idx.first h_S_)) (fun m => y (ix4 b h n m)) :=
  (Host.reduce_eq_fold_single (FloatOps.maximumf (F := Ideal) (φ := .f32)) y init _ hR h_S_ (ix3 b h n)).trans
    (congrArg (fun f => Finset.fold max (init (Shape.Idx.first h_S_)) f (Finset.univ : Finset (Fin 49)))
      (funext fun m => congrArg y (funext fun a => Fin.ext (by
        match a with
        | ⟨0, _⟩ => rfl
        | ⟨1, _⟩ => rfl
        | ⟨2, _⟩ => rfl
        | ⟨3, _⟩ => rfl))))

/-- The largest score of a row, folded from the word of −∞. -/
theorem v47_at (b : Fin 4096) (h : Fin 6) (n : Fin 49) :
    val_main_v47 (F := Ideal) x0 x1 x2 x3 x4 x5 x6 (ix3 b h n)
      = (Finset.univ : Finset (Fin 49)).fold max negInf (scores x0 x1 x2 x3 x4 x5 x6 b h n) := by
  unfold val_main_v47
  refine (host_lane_max _ _ (by decide) b h n).trans ?_
  exact congrArg (fun f => Finset.fold max negInf f (Finset.univ : Finset (Fin 49)))
    (funext fun m => v46_at x0 x1 x2 x3 x4 x5 x6 b h n m)

/-- The row's largest score as the specification takes it. -/
theorem v49_at (b : Fin 4096) (h : Fin 6) (n : Fin 49) :
    val_main_v49 (F := Ideal) x0 x1 x2 x3 x4 x5 x6 (ix3 b h n) = rowTop negInf (scores x0 x1 x2 x3 x4 x5 x6 b h n) := by
  rw [val_main_v49_apply, val_main_v48_apply, val_main_cst_4_apply, v47_at]
  rfl

/-- The exponential of a score minus its row's largest. -/
theorem v53_at (b : Fin 4096) (h : Fin 6) (n m : Fin 49) :
    val_main_v53 (F := Ideal) x0 x1 x2 x3 x4 x5 x6 (ix4 b h n m)
      = Ideal.exp (scores x0 x1 x2 x3 x4 x5 x6 b h n m - rowTop negInf (scores x0 x1 x2 x3 x4 x5 x6 b h n)) := by
  rw [val_main_v53_apply, val_main_v52_apply, val_main_v51_apply, val_main_v50_apply, v46_at]
  have e : idx_main_v50 (idx_main_v51 (ix4 b h n m)) = ix3 b h n := funext fun a => by
    match a with
    | ⟨0, _⟩ => rfl
    | ⟨1, _⟩ => rfl
    | ⟨2, _⟩ => rfl
  rw [e, v49_at]
  rfl

/-- The weights. -/
theorem v57_at (b : Fin 4096) (h : Fin 6) (n m : Fin 49) :
    val_main_v57 (F := Ideal) x0 x1 x2 x3 x4 x5 x6 (ix4 b h n m)
      = soft negInf (scores x0 x1 x2 x3 x4 x5 x6 b h n) m := by
  rw [val_main_v57_apply, val_main_v56_apply, val_main_v55_apply, val_main_v54_apply, val_main_cst_5_apply]
  have e : ∀ k : Fin 49, idx_main_v54 (idx_main_v55 (idx_main_v56 (ix4 b h n m))) k = ix4 b h n k :=
    fun k => funext fun a => by
      match a with
      | ⟨0, _⟩ => rfl
      | ⟨1, _⟩ => rfl
      | ⟨2, _⟩ => rfl
      | ⟨3, _⟩ => rfl
  simp only [e, v53_at, Ideal.ofBits_def, Ideal.ofBits_zero_f32, zero_add]
  rfl

end Cert.ReferenceIdeal.RefValue

end
-- ==== Proof.RefValue.lean ====
/-
  The reference program, last part: the weighted sums of the value vectors, the heads laid side by side, the output
  layer — and the whole program as the specification's function.

  Head h's output at token n, lane d, is the sum over the key tokens of the weight times the value vector's lane. The
  program then brings the token axis before the head axis and views (head, lane) as one axis of 192 channels: channel c
  is lane c % 32 of head c / 32. The output layer is one more affine layer, its weights read output-channel first.
-/
import proofs.«103782_j27470610825456_2_alg».proof.Proof.RefSoft

noncomputable section

namespace Cert.ReferenceIdeal.RefValue

open Cert.ReferenceIdeal Cert.ReferenceIdeal.Read Cert.WindowAttn Idealize.ShloMosaic Idealize.ShloMosaic.ValueIdx
open scoped BigOperators

variable (x0 : (⟨S4096x49x192, .f32⟩ : BufTy).Contents (Elt Ideal)) (x1 : (⟨S64x49x49, .f32⟩ : BufTy).Contents (Elt Ideal)) (x2 : (⟨S576x192, .f32⟩ : BufTy).Contents (Elt Ideal)) (x3 : (⟨S576, .f32⟩ : BufTy).Contents (Elt Ideal)) (x4 : (⟨S6x1x1, .f32⟩ : BufTy).Contents (Elt Ideal)) (x5 : (⟨S169x6, .f32⟩ : BufTy).Contents (Elt Ideal)) (x6 : (⟨S49x49, .i32⟩ : BufTy).Contents (Elt Ideal)) (x7 : (⟨S192x192, .f32⟩ : BufTy).Contents (Elt Ideal)) (x8 : (⟨S192, .f32⟩ : BufTy).Contents (Elt Ideal))

/-- Head h's output at token n, lane d, of window b. -/
def headOut (b : Fin 4096) (h : Fin 6) (n : Fin 49) (d : Fin 32) : EReal :=
  mix eps negInf (proj x0 x2 x3 0 (by decide) b) (proj x0 x2 x3 1 (by decide) b) (proj x0 x2 x3 2 (by decide) b)
    (fun h' => val_main_v25 (F := Ideal) x4 (ix3 h' (0 : Fin 1) (0 : Fin 1)))
    (fun h' n' m' => val_main_v38 (F := Ideal) x5 x6 (ix3 h' n' m'))
    (fun n' m' => x1 (ix3 (⟨b.val % 64, Nat.mod_lt _ (by decide)⟩ : Fin 64) n' m')) h n d

/-- The weighted sums of the value vectors. -/
theorem v58_at (b : Fin 4096) (h : Fin 6) (n : Fin 49) (d : Fin 32) :
    val_main_v58 (F := Ideal) x0 x1 x2 x3 x4 x5 x6 (ix4 b h n d) = headOut x0 x1 x2 x3 x4 x5 x6 b h n d := by
  rw [val_main_v58_apply]
  have el : ∀ k : Fin 49, lidx_main_v58 (ix4 b h n d) k = ix4 b h n k := fun k => funext fun a => by
    match a with
    | ⟨0, _⟩ => rfl
    | ⟨1, _⟩ => rfl
    | ⟨2, _⟩ => rfl
    | ⟨3, _⟩ => rfl
  have er : ∀ k : Fin 49, ridx_main_v58 (ix4 b h n d) k = ix4 b h k d := fun k => funext fun a => by
    match a with
    | ⟨0, _⟩ => rfl
    | ⟨1, _⟩ => rfl
    | ⟨2, _⟩ => rfl
    | ⟨3, _⟩ => rfl
  simp only [el, er, v57_at, v11_at]
  rfl

/-- The heads side by side: channel c of token n is lane c % 32 of head c / 32. -/
theorem v60_at (b : Fin 4096) (n : Fin 49) (c : Fin 192) :
    val_main_v60 (F := Ideal) x0 x1 x2 x3 x4 x5 x6 (ix3 b n c)
      = headOut x0 x1 x2 x3 x4 x5 x6 b (headOf c) n (laneOf c) := by
  rw [val_main_v60_apply, val_main_v59_apply]
  have e : idx_main_v59 (idx_main_v60 (ix3 b n c)) = ix4 b (headOf c) n (laneOf c) :=
    funext fun a => Fin.ext (by
      have hb := b.isLt; have hn := n.isLt; have hc := c.isLt
      match a with
      | ⟨0, _⟩ => show ((b.val * 49 + n.val) * 192 + c.val) / 9408 = b.val; omega
      | ⟨1, _⟩ => show ((b.val * 49 + n.val) * 192 + c.val) / 32 % 6 = c.val / 32; omega
      | ⟨2, _⟩ => show ((b.val * 49 + n.val) * 192 + c.val) / 192 % 49 = n.val; omega
      | ⟨3, _⟩ => show ((b.val * 49 + n.val) * 192 + c.val) % 32 = c.val % 32; omega)
  rw [e, v58_at]

/-- The output layer: the program's result at (window b, token n, channel o) is the specification's. -/
theorem v64_at (b : Fin 4096) (n : Fin 49) (o : Fin 192) :
    val_main_v64 (F := Ideal) x0 x1 x2 x3 x4 x5 x6 x7 x8 (ix3 b n o)
      = result x0 x1 x2 x3 (val_main_v25 (F := Ideal) x4) (val_main_v38 (F := Ideal) x5 x6) x7 x8 (ix3 b n o) := by
  rw [val_main_v64_apply, val_main_v61_apply, val_main_v63_apply, val_main_v62_apply]
  have el : ∀ k : Fin 192, lidx_main_v61 (ix3 b n o) k = ix3 b n k := fun k => funext fun a => by
    match a with
    | ⟨0, _⟩ => rfl
    | ⟨1, _⟩ => rfl
    | ⟨2, _⟩ => rfl
  have er : ∀ k : Fin 192, ridx_main_v61 (ix3 b n o) k = ix2 o k := fun k => funext fun a => by
    match a with
    | ⟨0, _⟩ => rfl
    | ⟨1, _⟩ => rfl
  have eb : idx_main_v62 (idx_main_v63 (ix3 b n o)) = ix1 o := funext fun a => by
    match a with
    | ⟨0, _⟩ => rfl
  simp only [el, er, eb, v60_at]
  rfl

/-- THE REFERENCE PROGRAM IS THE SPECIFICATION: its result array is the window attention of its arguments, the scales
    and the positional term taken as the program computes them (stages 25 and 38). -/
theorem reference_is_result :
    Cert.ReferenceIdeal.Read.val_main_v64 (F := Ideal) x0 x1 x2 x3 x4 x5 x6 x7 x8
      = Cert.WindowAttn.result x0 x1 x2 x3 (Cert.ReferenceIdeal.Read.val_main_v25 (F := Ideal) x4)
          (Cert.ReferenceIdeal.Read.val_main_v38 (F := Ideal) x5 x6) x7 x8 :=
  funext fun i => by
    rw [eq_ix3 i]
    exact v64_at x0 x1 x2 x3 x4 x5 x6 x7 x8 (i 0) (i 1) (i 2)

end Cert.ReferenceIdeal.RefValue

end
-- ==== Proof.lean ====
/-
  The certificate of the window-attention kernel against its jnp reference, on the extended reals.

  Both programs compute, for each of the 4096 windows of 49 tokens × 192 channels, the same function of the arguments
  (Proof/Spec.lean, `Cert.WindowAttn.result`): three affine input layers, per head the cosine of the query and key vectors
  times the head's scale plus a positional term plus the window's mask, the rows of scores turned into weights, the weighted
  sums of the value vectors, and an affine output layer. The kernel does this for 32 windows at a grid point, its weight
  matrices cut and transposed beforehand; the reference does it for all windows at once. The two agree entry by entry
  because every sum is a finite sum of the same terms and every cast, transpose and broadcast is a renumbering; no
  cancellation is used, so the inputs' finiteness is never needed.

    * Proof/KernelBody.lean: the body's one store at (window j, token n, channel o) is the window function of its blocks;
    * Proof/KernelArray.lean: block t of the output is windows 32·t … 32·t + 31 of the result, the blocks cover the array,
      and the arrays the program prepares before the launch are the slices the window function reads;
    * Proof/RefValue.lean: the reference's last stage is the result;
    * here: the three frames are the generated runs, the idealization rewrote nothing, and the two runs end at one array.
-/
import proofs.«103782_j27470610825456_2_alg».proof.Defs
import proofs.«103782_j27470610825456_2_alg».proof.Proof.Gen.Kernel
import proofs.«103782_j27470610825456_2_alg».proof.Proof.Gen.Kernel.Skeleton
import proofs.«103782_j27470610825456_2_alg».proof.Proof.Gen.Kernel.Launch
import proofs.«103782_j27470610825456_2_alg».proof.Proof.Gen.Kernel.Points
import proofs.«103782_j27470610825456_2_alg».proof.Proof.Gen.Kernel.Frame
import proofs.«103782_j27470610825456_2_alg».proof.Proof.Gen.KernelIdeal
import proofs.«103782_j27470610825456_2_alg».proof.Proof.Gen.KernelIdeal.Skeleton
import proofs.«103782_j27470610825456_2_alg».proof.Proof.Gen.KernelIdeal.Launch
import proofs.«103782_j27470610825456_2_alg».proof.Proof.Gen.KernelIdeal.Points
import proofs.«103782_j27470610825456_2_alg».proof.Proof.Gen.KernelIdeal.Frame
import proofs.«103782_j27470610825456_2_alg».proof.Proof.Gen.ReferenceIdeal
import proofs.«103782_j27470610825456_2_alg».proof.Proof.Gen.Pre_finite_inputs
import proofs.«103782_j27470610825456_2_alg».proof.Proof.Gen.KernelIdeal.Value
import proofs.«103782_j27470610825456_2_alg».proof.Proof.Gen.ReferenceIdeal.Run
import proofs.«103782_j27470610825456_2_alg».proof.Proof.Gen.ReferenceIdeal.Read
import proofs.«103782_j27470610825456_2_alg».proof.Proof.KernelBody
import proofs.«103782_j27470610825456_2_alg».proof.Proof.KernelArray
import proofs.«103782_j27470610825456_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end with its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no launch: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the output array at the window-attention result of the (agreeing) arguments. -/
theorem algebraic : Cert.algebraic_KernelIdeal_ReferenceIdeal := by
  intro m ρ m' ρ' _ hagree
  refine ⟨fun c => Cert.KernelIdeal.ArrayValue.G m c,
    Cert.KernelIdeal.ArrayValue.run Cert.KernelIdeal.BlockValue.out_at m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v64_eq, Cert.ReferenceIdeal.RefValue.reference_is_result,
    a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
